-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

abbrev nBuf : Space → Nat
  | .hbm => 7
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_34 : BitVec 32 := 0#32
  let v77 : BitVec 1 := Scalar.cmpi .ne v76 c0_i32_34
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  broadcasts_S1024x1_S1024x1024 : S1024x1.Broadcasts S1024x1024
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x8193 : Shape := ⟨2, ![8192, 8193]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8193, .f32⟩
  | .hbm, ⟨37, _⟩ => ⟨S_, .f32⟩
  | .hbm, ⟨38, _⟩ => ⟨S8192x8193, .f32⟩
  | .hbm, ⟨39, _⟩ => ⟨S8192x8193, .f32⟩
  | .hbm, ⟨40, _⟩ => ⟨S8192, .i32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8193, .f32⟩
  | .hbm, ⟨48, _⟩ => ⟨S8192x8193, .f32⟩
  | .hbm, ⟨49, _⟩ => ⟨S8192x8193, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S8192x8193, .f32⟩
  | .hbm, ⟨55, _⟩ => ⟨S8192x8193, .f32⟩
  | .hbm, ⟨56, _⟩ => ⟨S8192x1, .i32⟩
  | .hbm, ⟨57, _⟩ => ⟨S_, .i32⟩
  | .hbm, ⟨58, _⟩ => ⟨S8192x1, .i32⟩
  | .hbm, ⟨59, _⟩ => ⟨S8192x1, .i1⟩
  | .hbm, ⟨60, _⟩ => ⟨S_, .i32⟩
  | .hbm, ⟨61, _⟩ => ⟨S8192x1, .i32⟩
  | .hbm, ⟨62, _⟩ => ⟨S8192x1, .i32⟩
  | .hbm, ⟨63, _⟩ => ⟨S8192x1, .i32⟩
  | .hbm, ⟨64, _⟩ => ⟨S8192x1x1, .i32⟩
  | .hbm, ⟨65, _⟩ => ⟨S1, .i32⟩
  | .hbm, ⟨66, _⟩ => ⟨S_, .i32⟩
  | .hbm, ⟨67, _⟩ => ⟨S8192x1x1, .i32⟩
  | .hbm, ⟨68, _⟩ => ⟨S8192x1x1, .i1⟩
  | .hbm, ⟨69, _⟩ => ⟨S1x1x1, .i32⟩
  | .hbm, ⟨70, _⟩ => ⟨S8192x1x1, .i32⟩
  | .hbm, ⟨71, _⟩ => ⟨S8192x1x1, .i1⟩
  | .hbm, ⟨72, _⟩ => ⟨S8192x1x1, .i1⟩
  | .hbm, ⟨73, _⟩ => ⟨S_, .i1⟩
  | .hbm, ⟨74, _⟩ => ⟨S8192x1, .i1⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_cst : Ref sig .tc := ⟨.hbm, 41, rfl⟩
abbrev main_call1_v0 : Ref sig .tc := ⟨.hbm, 42, rfl⟩
abbrev main_call1_cst_0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_cst_1 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_v29 : Ref sig .tc := ⟨.hbm, 55, rfl⟩
abbrev main_v30 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_cst_7 : Ref sig .tc := ⟨.hbm, 81, rfl⟩
abbrev main_v33 : Ref sig .tc := ⟨.hbm, 82, rfl⟩
abbrev main_v34 : Ref sig .tc := ⟨.hbm, 83, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  concatenates_S8192x8192_S8192x1_S8192x8193_d1 : Shape.Concatenates [S8192x8192, S8192x1] S8192x8193 1
  bcast_S_S8192x8193 : S_.BroadcastsInDim S8192x8193 (![] : Fin 0 → Fin S8192x8193.rank)
  reducesTo_S8192x8193_S8192_d1 : S8192x8193.ReducesTo [1] S8192
  bcast_S_S8192 : S_.BroadcastsInDim S8192 (![] : Fin 0 → Fin S8192.rank)
  bcast_S8192x1_S8192x8193_0_1 : S8192x1.BroadcastsInDim S8192x8193 (![0, 1] : Fin 2 → Fin S8192x8193.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S8192x256_S8192x8192_1_1_0_0_n_n_wf : DotDims.WF S8192x256 S8192x256 S8192x8192 [1] [1] [0] [0] [] []
  gather_S8192x8193_S8192x1x1_S8192x1_n_1_0_0_1_2_11_wf : GatherDims.WF S8192x8193 S8192x1x1 S8192x1 [] [1] [0] [1] [0] 2 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8193_S8192x1x1_S8192x1_n_1_0_0_1_2_11 : GatherDims S8192x8193 S8192x1x1 S8192x1 where
  offsetDims := []
  collapsedSliceDims := [1]
  operandBatchingDims := [0]
  startIndicesBatchingDims := [0]
  startIndexMap := [1]
  indexVectorDim := 2
  sliceSizes := ![1, 1]
  wf := gather_S8192x8193_S8192x1x1_S8192x1_n_1_0_0_1_2_11_wf

class Facts : Prop extends Facts₀ where

variable [Facts]
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.RefRunVal.lean ====
/-
  The reference's run, with its result named by stages.

  Every execution of the reference ends with its result buffer at the composition of its operations applied to the two
  argument arrays, which end unchanged; that composition is the last of the stage functions (each operation as a
  function of the stages before it), so the result is the last stage of the two argument arrays.
-/
import proofs.«129074_j39118562132130_1_alg».proof.Proof.RefRun
import proofs.«129074_j39118562132130_1_alg».proof.Proof.RefReadLite

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The run's composed term is the last stage. -/
theorem res_eq_val (m : (ℓ : Loc nD τ sig) → Buf (Elt F) ℓ) (c : Dev nD) :
    Cert.ReferenceIdeal.Value.res_main_v34 m c
      = Cert.ReferenceIdeal.Read.val_main_v34 (F := F) (m ((c.tc : Thread nD τ).loc main_arg0)) (m ((c.tc : Thread nD τ).loc main_arg1)) := by
  unfold Cert.ReferenceIdeal.Value.res_main_v34; rfl

/-- Every execution ends with the result at the last stage of the argument arrays, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = Cert.ReferenceIdeal.Read.val_main_v34 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_eq_val m c), (h c).2⟩) (Cert.ReferenceIdeal.Value.run m ρ)

end Cert.ReferenceIdeal.RefValue

end
-- ==== Proof.Frames.lean ====
/-
  The three frame claims and the idealization's ledger.

  Both kernel programs run the same grid of 8 × 8 points; their frames (every execution ends, nothing faults, the two
  argument arrays end as they began) are the generated ones. The reference has no kernel launch: its frame is its run
  with the result forgotten. The ledger has two entries, each a named constant of the kernel: the scale 14.2857141…
  (the f32 nearest to 1 / 0.07) read as the exact reciprocal 134217728 / 9395241 of the reference's divisor
  9395241 / 2^27 (the f32 nearest to 0.07), and the finite fill -0.7 · max_f32 of the masked diagonal read as -∞.
-/
import proofs.«129074_j39118562132130_1_alg».proof.Defs
import proofs.«129074_j39118562132130_1_alg».proof.Proof.Gen.Kernel
import proofs.«129074_j39118562132130_1_alg».proof.Proof.Gen.Kernel.Frame
import proofs.«129074_j39118562132130_1_alg».proof.Proof.Gen.KernelIdeal
import proofs.«129074_j39118562132130_1_alg».proof.Proof.Gen.KernelIdeal.Frame
import proofs.«129074_j39118562132130_1_alg».proof.Proof.Gen.ReferenceIdeal
import proofs.«129074_j39118562132130_1_alg».proof.Proof.RefRunVal
import proofs.«129074_j39118562132130_1_alg».proof.Proof.Gen.Pre_finite_inputs

noncomputable section

open Idealize.ShloMosaic Idealize.ShloMosaic.TcCoe Idealize.SL.Sem

namespace Cert.Proof.Frames

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run_val (F := Ideal) m ρ)

/-- The two named constants denote, at the ideal instance, what the table gives them. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "neg_big" .f32 0xFF333332#32 ⊥ rfl⟩

end Cert.Proof.Frames

end
-- ==== Proof.KPieces.lean ====
/-
  What one grid point leaves behind, as values.

  A point of the 8 × 8 grid loads a block of 1024 rows of the first array and a block of 1024 rows of the second, and
  updates four columns of 1024 numbers that are carried from point to point along a row of the grid: the running
  maximum of each row's scaled cosines, the running sum of their exponentials relative to that maximum, the running
  maximum off the diagonal, and the running sum of the diagonal entries. At the first column block of a row of the grid
  the four columns start from -∞, 0, -∞, 0; at the last column block the point also writes its output block, the
  combination of the four updated columns. Each lemma reads back, from the stores the body made, the one store that
  covers the column (the latest), and states its payload over the point's two input blocks and the carried columns.
-/
import proofs.«129074_j39118562132130_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-! ## A middle column block: the four columns updated from what the point before left -/

/-- The running maximum after a middle point: the larger of the carried maximum and the block's row maxima. -/
theorem sout_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .f32) (xs0 xs1 xs2 xs3 : Vec F S1024x1 .f32) :
    sout0_B_0 c i arg2 harg2 arg3 harg3 arg4 harg4 arg5 harg5 arg6 harg6 arg7 harg7 arg8 harg8 hc0 hc1 x0 x1 xs0 xs1 xs2 xs3 = k0_pay12 (k0_pay8 x0 x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of exponentials after a middle point: the carried sum re-based to the new maximum, plus the block's. -/
theorem sout_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .f32) (xs0 xs1 xs2 xs3 : Vec F S1024x1 .f32) :
    sout0_B_1 c i arg2 harg2 arg3 harg3 arg4 harg4 arg5 harg5 arg6 harg6 arg7 harg7 arg8 harg8 hc0 hc1 x0 x1 xs0 xs1 xs2 xs3 = k0_pay11 (k0_pay6 x0 x1) (k0_pay8 x0 x1) xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running off-diagonal maximum after a middle point. -/
theorem sout_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .f32) (xs0 xs1 xs2 xs3 : Vec F S1024x1 .f32) :
    sout0_B_2 c i arg2 harg2 arg3 harg3 arg4 harg4 arg5 harg5 arg6 harg6 arg7 harg7 arg8 harg8 hc0 hc1 x0 x1 xs0 xs1 xs2 xs3 = k0_pay13 (k0_pay9 i x0 x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of diagonal entries after a middle point. -/
theorem sout_B_3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 x1 : Vec F S1024x256 .f32) (xs0 xs1 xs2 xs3 : Vec F S1024x1 .f32) :
    sout0_B_3 c i arg2 harg2 arg3 harg3 arg4 harg4 arg5 harg5 arg6 harg6 arg7 harg7 arg8 harg8 hc0 hc1 x0 x1 xs0 xs1 xs2 xs3 = k0_pay14 (k0_pay6 x0 x1) (k0_pay7 i) xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-! ## The first column block: the same update, from the columns the point itself has just reset -/

/-- The running maximum after the first point of a row of the grid: the update of the reset column (all -∞). -/
theorem sout_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .f32)  :
    sout0_A_0 c i arg2 harg2 arg3 harg3 arg4 harg4 arg5 harg5 arg6 harg6 arg7 harg7 arg8 harg8 hc0 hc1 x0 x1  = k0_pay12 (k0_pay8 x0 x1) k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 )]
  unfold kernelRun0_A
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of exponentials after the first point: the update of the reset columns (-∞ and 0). -/
theorem sout_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .f32)  :
    sout0_A_1 c i arg2 harg2 arg3 harg3 arg4 harg4 arg5 harg5 arg6 harg6 arg7 harg7 arg8 harg8 hc0 hc1 x0 x1  = k0_pay11 (k0_pay6 x0 x1) (k0_pay8 x0 x1) k0_pay2 k0_pay2 k0_pay3 := by
  unfold sout0_A_1
  rw [View.read_writes_eq_canon _ _ _ (scover0_A_1 c i arg2 harg2 arg3 harg3 arg4 harg4 arg5 harg5 arg6 harg6 arg7 harg7 arg8 harg8 hc0 hc1 x0 x1 )]
  unfold kernelRun0_A
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running off-diagonal maximum after the first point: the update of the reset column (all -∞). -/
theorem sout_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .f32)  :
    sout0_A_2 c i arg2 harg2 arg3 harg3 arg4 harg4 arg5 harg5 arg6 harg6 arg7 harg7 arg8 harg8 hc0 hc1 x0 x1  = k0_pay13 (k0_pay9 i x0 x1) k0_pay4 := by
  unfold sout0_A_2
  rw [View.read_writes_eq_canon _ _ _ (scover0_A_2 c i arg2 harg2 arg3 harg3 arg4 harg4 arg5 harg5 arg6 harg6 arg7 harg7 arg8 harg8 hc0 hc1 x0 x1 )]
  unfold kernelRun0_A
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of diagonal entries after the first point: the update of the reset column (all 0). -/
theorem sout_A_3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 x1 : Vec F S1024x256 .f32)  :
    sout0_A_3 c i arg2 harg2 arg3 harg3 arg4 harg4 arg5 harg5 arg6 harg6 arg7 harg7 arg8 harg8 hc0 hc1 x0 x1  = k0_pay14 (k0_pay6 x0 x1) (k0_pay7 i) k0_pay5 := by
  unfold sout0_A_3
  rw [View.read_writes_eq_canon _ _ _ (scover0_A_3 c i arg2 harg2 arg3 harg3 arg4 harg4 arg5 harg5 arg6 harg6 arg7 harg7 arg8 harg8 hc0 hc1 x0 x1 )]
  unfold kernelRun0_A
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-! ## The last column block: the update, and the output block combined from the four updated columns -/

/-- The running maximum after the last point. -/
theorem sout_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .f32) (xs0 xs1 xs2 xs3 : Vec F S1024x1 .f32) :
    sout0_C_0 c i arg2 harg2 arg3 harg3 arg4 harg4 arg5 harg5 arg6 harg6 arg7 harg7 arg8 harg8 hc0 hc1 x0 x1 xs0 xs1 xs2 xs3 = k0_pay12 (k0_pay8 x0 x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of exponentials after the last point. -/
theorem sout_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .f32) (xs0 xs1 xs2 xs3 : Vec F S1024x1 .f32) :
    sout0_C_1 c i arg2 harg2 arg3 harg3 arg4 harg4 arg5 harg5 arg6 harg6 arg7 harg7 arg8 harg8 hc0 hc1 x0 x1 xs0 xs1 xs2 xs3 = k0_pay11 (k0_pay6 x0 x1) (k0_pay8 x0 x1) xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running off-diagonal maximum after the last point. -/
theorem sout_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .f32) (xs0 xs1 xs2 xs3 : Vec F S1024x1 .f32) :
    sout0_C_2 c i arg2 harg2 arg3 harg3 arg4 harg4 arg5 harg5 arg6 harg6 arg7 harg7 arg8 harg8 hc0 hc1 x0 x1 xs0 xs1 xs2 xs3 = k0_pay13 (k0_pay9 i x0 x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The running sum of diagonal entries after the last point. -/
theorem sout_C_3 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .f32) (xs0 xs1 xs2 xs3 : Vec F S1024x1 .f32) :
    sout0_C_3 c i arg2 harg2 arg3 harg3 arg4 harg4 arg5 harg5 arg6 harg6 arg7 harg7 arg8 harg8 hc0 hc1 x0 x1 xs0 xs1 xs2 xs3 = k0_pay14 (k0_pay6 x0 x1) (k0_pay7 i) xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

/-- The output block the last point writes: log of (the sum plus the exponential of the off-diagonal maximum relative to the maximum), plus the maximum, minus the diagonal sum — of the four columns as the point has just updated them. -/
theorem out_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 x1 : Vec F S1024x256 .f32) (xs0 xs1 xs2 xs3 : Vec F S1024x1 .f32) :
    out0_C_2 c i arg2 harg2 arg3 harg3 arg4 harg4 arg5 harg5 arg6 harg6 arg7 harg7 arg8 harg8 hc0 hc1 x0 x1 xs0 xs1 xs2 xs3 = k0_pay1 (k0_pay11 (k0_pay6 x0 x1) (k0_pay8 x0 x1) xs0 xs0 xs1) (k0_pay13 (k0_pay9 i x0 x1) xs2) (k0_pay12 (k0_pay8 x0 x1) xs0) (k0_pay12 (k0_pay8 x0 x1) xs0) (k0_pay14 (k0_pay6 x0 x1) (k0_pay7 i) xs3) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  first | rw [View.canon_unit_zero hz] | rw [View.canon_cons_unit_zero (S := S1024x1) hz]
  simp only [View.readAt_eq_ld, harg2.read_unread, harg3.read_unread, harg4.read_unread, harg5.read_unread, harg6.read_unread, harg7.read_unread, harg8.read_unread, View.ld_unit_zero (S := S1024x1) hz, View.ld_unit_zero (S := S1024x256) hz, View.readCov_unit_zero (S := S1024x1) _ hz]

end Cert.KernelIdeal.Pieces

end
-- ==== Proof.Spec.lean ====
/-
  The two losses as functions of the argument arrays, over the extended reals.

  Both programs take two arrays of 8192 rows and 256 features, divide each row by its Euclidean norm (kept above a
  small positive constant), and form the 8192 × 8192 matrix of cosines between rows of the first and rows of the
  second. Row `i`'s own column `i` is its positive; the largest other cosine of the row is its hardest negative.

  The reference appends the hardest negative to the row as a column 8192, divides the 8193 logits by a temperature,
  and takes minus the mean, over the rows, of the log-probability a softmax over the row gives to column `i`.

  The kernel multiplies the cosines by the temperature's reciprocal and never holds a whole row: it walks the row in
  8 blocks of 1024 columns keeping four numbers — the largest entry so far, the sum of exponentials of the entries so
  far (each taken relative to that largest entry, and re-based whenever it grows), the largest entry so far off the
  row's own column, and the entry on the row's own column — and at the last block combines them into
  log-sum-exp minus the positive; the mean over the rows is taken afterwards.
-/
import Idealize.ShloMosaic.PureOps.Ideal
import Idealize.ShloMosaic.PureOps.Ideal.Laws

noncomputable section

namespace Cert.Contrast

open Idealize.ShloMosaic

/-- The small constant the norms are kept above: the f32 nearest to 1e-12, the same word in both programs. -/
def eps : EReal := Ideal.ofBits .f32 0x2B8CBCCC#32

/-- The reference's temperature: the f32 nearest to 0.07, which is 9395241 / 2^27. -/
def temperature : EReal := Ideal.ofBits .f32 0x3D8F5C29#32

/-- The kernel's scale: the exact reciprocal of the reference's temperature. -/
def scale : EReal := ((134217728 / 9395241 : ℝ) : EReal)

/-- The number of rows, 8192, as both programs write it. -/
def rowCount : EReal := Ideal.ofBits .f32 0x46000000#32

/-- Entry `(i, k)` of `x` with row `i` divided by its Euclidean norm, the norm kept above `eps`. -/
def unit (x : Fin 8192 → Fin 256 → EReal) (i : Fin 8192) (k : Fin 256) : EReal :=
  Ideal.div (x i k) (max (Ideal.sqrt (∑ k', x i k' * x i k')) eps)

/-- The cosine between row `i` of `a` and row `j` of `p`. -/
def cosine (a p : Fin 8192 → Fin 256 → EReal) (i j : Fin 8192) : EReal :=
  ∑ k, unit a i k * unit p j k

/-! ## The kernel's walk along a row -/

/-- What the kernel keeps of a row between column blocks: the largest scaled entry so far (`m`), the sum of
    exponentials so far relative to `m` (`l`), the largest scaled entry so far off the row's own column (`g`), and
    the sum so far of the entries on the row's own column (`dg`: at most one entry is). -/
structure Acc where
  m : EReal
  l : EReal
  g : EReal
  dg : EReal

/-- Before the first block: nothing seen. -/
def Acc.init : Acc := ⟨⊥, 0, ⊥, 0⟩

/-- One more block of scaled entries `s`, `own` marking the row's own column if it lies in the block. -/
def Acc.step {T : ℕ} (A : Acc) (s : Fin T → EReal) (own : Fin T → Prop) [DecidablePred own] : Acc :=
  let m' := max A.m (Finset.univ.fold max ⊥ s)
  { m := m'
    l := Ideal.exp (A.m - m') * A.l + ∑ jj, Ideal.exp (s jj - m')
    g := max A.g (Finset.univ.fold max ⊥ fun jj => if own jj then ⊥ else s jj)
    dg := A.dg + ∑ jj, if own jj then s jj else 0 }

/-- What the kernel writes for the row at its last block: log-sum-exp of the row with its hardest negative appended,
    minus the positive. -/
def Acc.out (A : Acc) : EReal := Ideal.log (A.l + Ideal.exp (A.g - A.m)) + A.m - A.dg

/-- Column `jj` of column block `kb`. -/
def col (kb : Fin 8) (jj : Fin 1024) : Fin 8192 := ⟨kb.val * 1024 + jj.val, by omega⟩

/-- The row's accumulator after its first `k` column blocks (`s` is the row's scaled entries, `i` its own column). -/
def acc (s : Fin 8192 → EReal) (i : Fin 8192) : ℕ → Acc
  | 0 => Acc.init
  | k + 1 => if h : k < 8 then (acc s i k).step (fun jj => s (col ⟨k, h⟩ jj)) (fun jj => col ⟨k, h⟩ jj = i) else acc s i k

/-- The kernel's loss of row `i`. -/
def kernelRow (a p : Fin 8192 → Fin 256 → EReal) (i : Fin 8192) : EReal :=
  (acc (fun j => cosine a p i j * scale) i 8).out

/-- The kernel's result: the mean of the rows' losses. -/
def kernelLoss (a p : Fin 8192 → Fin 256 → EReal) : EReal :=
  Ideal.div (∑ i, kernelRow a p i) rowCount

/-! ## The reference -/

/-- Row `i`'s hardest negative: its largest cosine off its own column. -/
def hardNeg (a p : Fin 8192 → Fin 256 → EReal) (i : Fin 8192) : EReal :=
  Finset.univ.fold max ⊥ fun j : Fin 8192 => if i = j then ⊥ else cosine a p i j

/-- Row `i`'s 8193 logits: its cosines, then its hardest negative, all divided by the temperature. -/
def logit (a p : Fin 8192 → Fin 256 → EReal) (i : Fin 8192) (j : Fin 8193) : EReal :=
  Ideal.div (if h : j.val < 8192 then cosine a p i ⟨j.val, h⟩ else hardNeg a p i) temperature

/-- The row's largest logit, as the softmax takes it. -/
def topLogit (a p : Fin 8192 → Fin 256 → EReal) (i : Fin 8192) : EReal :=
  max ⊥ (Finset.univ.fold max ⊥ (logit a p i))

/-- The log-probability the row's softmax gives its own column. -/
def logProb (a p : Fin 8192 → Fin 256 → EReal) (i : Fin 8192) : EReal :=
  (logit a p i i.castSucc - topLogit a p i) - Ideal.log (∑ j, Ideal.exp (logit a p i j - topLogit a p i))

/-- The reference's result: minus the mean of the rows' log-probabilities. -/
def referenceLoss (a p : Fin 8192 → Fin 256 → EReal) : EReal :=
  -(Ideal.div (∑ i, logProb a p i) rowCount)

end Cert.Contrast

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«129074_j39118562132130_1_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.KRead.lean ====
/-
  The body's arithmetic, read entry by entry over the extended reals.

  Of the two input blocks (1024 rows of 256 features each) the body forms the 1024 × 1024 block of scaled cosines: each
  row divided by its Euclidean norm (kept above a small constant), the rows' products summed over the features (the
  block product, the second block transposed), times the scale. It then takes, row by row, the block's largest entry,
  the sum of the exponentials of its entries relative to the updated running maximum, its largest entry off the
  diagonal (the diagonal compares global row and column numbers: block number times 1024 plus the offset), and the sum
  of its diagonal entries. Read at row `r` these are one step of the walk along the row that the specification describes.
-/
import proofs.«129074_j39118562132130_1_alg».proof.Proof.Gen.KernelIdeal.Skeleton
import proofs.«129074_j39118562132130_1_alg».proof.Proof.Spec
import proofs.«129074_j39118562132130_1_alg».proof.Proof.LibLayout
import proofs.«129074_j39118562132130_1_alg».proof.Proof.LibLay3
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open Idealize.ShloMosaic Idealize.ShloMosaic.TcCoe Idealize.ShloMosaic.ValueIdx

namespace Cert.KernelIdeal.Read

open Cert.KernelIdeal Cert.KernelIdeal.Gen Cert.Contrast

/-- Row `r` of a block of 1024 rows, as a function of the feature. -/
abbrev rowOf (x : FVec Ideal S1024x256 .f32) (r : Fin 1024) : Fin 256 → EReal := fun k => x (ix2 r k)

/-- A row divided by its Euclidean norm, the norm kept above `eps`. -/
def unitRow (v : Fin 256 → EReal) (k : Fin 256) : EReal :=
  Ideal.div (v k) (max (Ideal.sqrt (∑ k', v k' * v k')) eps)

/-- The scaled cosine between row `r` of one block and row `cc` of another. -/
def sblk (x0 x1 : FVec Ideal S1024x256 .f32) (r cc : Fin 1024) : EReal :=
  (∑ k, unitRow (rowOf x0 r) k * unitRow (rowOf x1 cc) k) * scale

theorem neg_inf_word : Ideal.ofBits .f32 0xFF800000#32 = ⊥ := by simp [Ideal.ofBits, Ideal.ieee]

/-! ## The three reductions of the body, read at a row -/

theorem rowSum256 (src : FVec Ideal S1024x256 .f32) (hφ : FKind.Formats .f32)
    (hacc : (0x00000000#32 : BitVec 32) = 0x00000000#32) (r : Fin 1024) :
    multiReduction .add [1] S1024 src 0x00000000#32 reduces_S1024x256_S1024 hφ hacc (ix1 r) = ∑ k : Fin 256, src (ix2 r k) :=
  Cert.Attn.Layout.rowSum_apply src reduces_S1024x256_S1024 hφ hacc r

theorem rowSum1024 (src : FVec Ideal S1024x1024 .f32) (hφ : FKind.Formats .f32)
    (hacc : (0x00000000#32 : BitVec 32) = 0x00000000#32) (r : Fin 1024) :
    multiReduction .add [1] S1024 src 0x00000000#32 reduces_S1024x1024_S1024 hφ hacc (ix1 r) = ∑ cc : Fin 1024, src (ix2 r cc) :=
  Cert.Attn.Layout.rowSum_apply src reduces_S1024x1024_S1024 hφ hacc r

theorem rowMax1024 (src : FVec Ideal S1024x1024 .f32) (hφ : FKind.Formats .f32)
    (hacc : (0xFF800000#32 : BitVec 32) = 0xFF800000#32) (r : Fin 1024) :
    multiReduction .maximumf [1] S1024 src 0xFF800000#32 reduces_S1024x1024_S1024 hφ hacc (ix1 r)
      = (Finset.univ : Finset (Fin 1024)).fold max ⊥ (fun cc => src (ix2 r cc)) :=
  (Cert.GQA.Lay.rowMax_apply src 0xFF800000#32 reduces_S1024x1024_S1024 hφ hacc r).trans (by rw [neg_inf_word])

/-- A column of 1024 numbers obtained from a vector of 1024 reads, at row `r`, the vector's entry `r`. -/
theorem col_apply (v : FVec Ideal S1024 .f32) (r : Fin 1024) (u : Fin 1) :
    shapeCast S1024x1 v shapeCasts_S1024_S1024x1 (ix2 r u) = v (ix1 r) :=
  Cert.Attn.Layout.shapeCast_a_a1_apply v shapeCasts_S1024_S1024x1 r u

theorem normalize_apply (x : FVec Ideal S1024x256 .f32) (hφ : FKind.Formats .f32)
    (hacc : (0x00000000#32 : BitVec 32) = 0x00000000#32) (r : Fin 1024) (k : Fin 256) :
    divf x (broadcastTo S1024x256 (maximumf (sqrt (shapeCast S1024x1 (multiReduction .add [1] S1024 (mulf x x) 0x00000000#32 reduces_S1024x256_S1024 hφ hacc) shapeCasts_S1024_S1024x1)) (broadcast S1024x1 (FloatOps.ofBits .f32 0x2B8CBCCC#32))) broadcasts_S1024x1_S1024x256) (ix2 r k)
      = unitRow (rowOf x r) k := by
  rw [divf_apply, Cert.Attn.Layout.broadcastTo_a1_ab_apply, maximumf_apply]
  show Ideal.div (x (ix2 r k)) (max (Ideal.sqrt (shapeCast S1024x1 _ shapeCasts_S1024_S1024x1 (ix2 r (0 : Fin 1)))) (Ideal.ofBits .f32 0x2B8CBCCC#32)) = _
  rw [col_apply, rowSum256]
  rfl

theorem scale_named : Named.named (F := Ideal) κ "inv_temperature" (φ := .f32) 0x41649249#32 = scale :=
  IdealRules.named_const.ideal_named_scalar _ _ _ _ rfl

theorem lhs0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The block of scaled cosines at `(r, cc)`: the sum over the 256 features of the two unit rows' products, times the scale. -/
theorem pay6_apply (x0 x1 : FVec Ideal S1024x256 .f32) (r cc : Fin 1024) :
    k0_pay6 (F := Ideal) x0 x1 (ix2 r cc) = sblk x0 x1 r cc := by
  unfold k0_pay6
  (try dsimp only)
  rw [mulf_apply, broadcast_apply, scale_named]
  unfold sblk
  refine congrArg (· * scale) ?_
  refine (Ideal.matmul_constant_zero_apply dot_S1024x256_S256x1024_S1024x1024_1_0_0_1_n_n none _ _ (ix2 r cc)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r cc) ((contrEquiv1 dot_S1024x256_S256x1024_S1024x1024_1_0_0_1_n_n 256 rfl rfl).symm k) = ix2 r k := funext fun a => Fin.ext (by
    match a with
    | ⟨0, _⟩ => exact lhs0 _ _
    | ⟨1, _⟩ => exact (lhs1 _ _).trans hk)
  have er : dot_S1024x256_S256x1024_S1024x1024_1_0_0_1_n_n.rhsIdx (ix2 r cc) ((contrEquiv1 dot_S1024x256_S256x1024_S1024x1024_1_0_0_1_n_n 256 rfl rfl).symm k) = ix2 k cc := funext fun a => Fin.ext (by
    match a with
    | ⟨0, _⟩ => exact (rhs0 _ _).trans hk
    | ⟨1, _⟩ => exact rhs1 _ _)
  rw [el, er, truncf_apply, transpose_ix2_apply, truncf_apply]
  exact congrArg₂ (· * ·) (normalize_apply x0 _ _ r k) (normalize_apply x1 _ _ cc k)

/-! ## The diagonal mask -/

/-- Row `r` of row block `i 0` and column `cc` of column block `i 1` are the same global number. -/
abbrev onDiag (i : grid0.Coords) (r cc : Fin 1024) : Prop := (i 0).val * 1024 + r.val = (i 1).val * 1024 + cc.val

/-- Block number times 1024 plus an offset below 1024, for block numbers below 8, does not wrap in 32 bits: two such words
    are equal exactly when the numbers are. -/
theorem word_eq_iff (q kb r cc : ℕ) (hq : q < 8) (hk : kb < 8) (hr : r < 1024) (hc : cc < 1024) :
    (BitVec.ofNat 32 q * 1024#32 + BitVec.ofNat 32 r = BitVec.ofNat 32 kb * 1024#32 + BitVec.ofNat 32 cc)
      ↔ q * 1024 + r = kb * 1024 + cc := by
  rw [← BitVec.toNat_inj]
  simp only [BitVec.toNat_add, BitVec.toNat_mul, BitVec.toNat_ofNat]
  norm_num
  omega

/-- The mask the body computes at `(r, cc)` is set exactly on the diagonal. -/
theorem pay7_apply (i : grid0.Coords) (r cc : Fin 1024) :
    k0_pay7 i (ix2 r cc) = if onDiag i r cc then 1#1 else 0#1 := by
  unfold k0_pay7
  (try dsimp only)
  show BitVec.ofBool ((BitVec.ofNat 32 (i 0).val * 1024#32 + iota .tc S1024x1024 32 [0] iota_S1024x1024_d0_w32 (ix2 r cc))
      == (BitVec.ofNat 32 (i 1).val * 1024#32 + iota .tc S1024x1024 32 [1] iota_S1024x1024_d1_w32 (ix2 r cc))) = _
  rw [iota_single_apply, iota_single_apply]
  show BitVec.ofBool ((BitVec.ofNat 32 (i 0).val * 1024#32 + BitVec.ofNat 32 r.val)
      == (BitVec.ofNat 32 (i 1).val * 1024#32 + BitVec.ofNat 32 cc.val)) = _
  have hw := word_eq_iff (i 0).val (i 1).val r.val cc.val (show (i 0).val < 8 from (i 0).isLt) (show (i 1).val < 8 from (i 1).isLt) r.isLt cc.isLt
  by_cases h : onDiag i r cc
  · rw [if_pos h, beq_iff_eq.mpr (hw.mpr h)]; rfl
  · rw [if_neg h, beq_eq_false_iff_ne.mpr (fun e => h (hw.mp e))]; rfl

theorem neg_big_named : Named.named (F := Ideal) κ "neg_big" (φ := .f32) 0xFF333332#32 = ⊥ :=
  IdealRules.named_const.ideal_named_scalar _ _ _ _ rfl

/-- The largest scaled cosine of row `r` within the block. -/
theorem pay8_apply (x0 x1 : FVec Ideal S1024x256 .f32) (r : Fin 1024) :
    k0_pay8 (F := Ideal) x0 x1 (ix2 r (0 : Fin 1)) = (Finset.univ : Finset (Fin 1024)).fold max ⊥ (sblk x0 x1 r) := by
  unfold k0_pay8
  (try dsimp only)
  rw [col_apply, rowMax1024]
  exact congrArg (Finset.fold max ⊥ · (Finset.univ : Finset (Fin 1024))) (funext fun cc => pay6_apply x0 x1 r cc)

/-- The block with its diagonal entries replaced by -∞. -/
theorem pay9_apply (i : grid0.Coords) (x0 x1 : FVec Ideal S1024x256 .f32) (r cc : Fin 1024) :
    k0_pay9 (F := Ideal) i x0 x1 (ix2 r cc) = if onDiag i r cc then ⊥ else sblk x0 x1 r cc := by
  unfold k0_pay9
  try dsimp only
  rw [select_apply, broadcast_apply, neg_big_named, pay7_apply, pay6_apply]
  split
  · exact select_one _ _
  · exact select_zero _ _

/-! ## The column updates, read at a row -/

theorem pay2_apply (j : S1024x1.Idx) : k0_pay2 (F := Ideal) j = ⊥ := by
  unfold k0_pay2; (try dsimp only); rw [shapeCast_self, broadcast_apply]; exact neg_inf_word
theorem pay4_apply (j : S1024x1.Idx) : k0_pay4 (F := Ideal) j = ⊥ := by
  unfold k0_pay4; (try dsimp only); rw [shapeCast_self, broadcast_apply]; exact neg_inf_word
theorem pay3_apply (j : S1024x1.Idx) : k0_pay3 (F := Ideal) j = 0 := by
  unfold k0_pay3; (try dsimp only); rw [shapeCast_self, broadcast_apply]; exact Ideal.ofBits_zero_f32
theorem pay5_apply (j : S1024x1.Idx) : k0_pay5 (F := Ideal) j = 0 := by
  unfold k0_pay5; (try dsimp only); rw [shapeCast_self, broadcast_apply]; exact Ideal.ofBits_zero_f32

/-- The updated maximum: the larger of the carried one and the block's. -/
theorem pay12_apply (v37 v42 : FVec Ideal S1024x1 .f32) (j : S1024x1.Idx) :
    k0_pay12 (F := Ideal) v37 v42 j = max (v42 j) (v37 j) := by
  unfold k0_pay12 k0_pay10; (try dsimp only); rw [shapeCast_self]; rfl

/-- The updated sum of exponentials: the carried sum re-based to the new maximum, plus the block's exponentials. -/
theorem pay11_apply (v26 : FVec Ideal S1024x1024 .f32) (v37 v42 v44 v47 : FVec Ideal S1024x1 .f32) (r : Fin 1024) :
    k0_pay11 (F := Ideal) v26 v37 v42 v44 v47 (ix2 r (0 : Fin 1))
      = Ideal.exp (v44 (ix2 r (0 : Fin 1)) - max (v42 (ix2 r (0 : Fin 1))) (v37 (ix2 r (0 : Fin 1)))) * v47 (ix2 r (0 : Fin 1))
        + ∑ cc : Fin 1024, Ideal.exp (v26 (ix2 r cc) - max (v42 (ix2 r (0 : Fin 1))) (v37 (ix2 r (0 : Fin 1)))) := by
  unfold k0_pay11 k0_pay10
  (try dsimp only)
  rw [shapeCast_self, addf_apply, mulf_apply, col_apply, rowSum1024]
  refine congrArg₂ (· + ·) rfl (Finset.sum_congr rfl fun cc _ => ?_)
  show Ideal.exp (v26 (ix2 r cc) - broadcastTo S1024x1024 (maximumf v42 v37) broadcasts_S1024x1_S1024x1024 (ix2 r cc)) = _
  rw [Cert.Attn.Layout.broadcastTo_a1_ab_apply]; rfl

/-- The updated off-diagonal maximum. -/
theorem pay13_apply (v39 : FVec Ideal S1024x1024 .f32) (v61 : FVec Ideal S1024x1 .f32) (r : Fin 1024) :
    k0_pay13 (F := Ideal) v39 v61 (ix2 r (0 : Fin 1))
      = max (v61 (ix2 r (0 : Fin 1))) ((Finset.univ : Finset (Fin 1024)).fold max ⊥ (fun cc => v39 (ix2 r cc))) := by
  unfold k0_pay13
  (try dsimp only)
  rw [shapeCast_self, maximumf_apply, col_apply, rowMax1024]

/-- The updated diagonal sum. -/
theorem pay14_apply (v26 : FVec Ideal S1024x1024 .f32) (v35 : IVec S1024x1024 1) (v66 : FVec Ideal S1024x1 .f32) (r : Fin 1024) :
    k0_pay14 (F := Ideal) v26 v35 v66 (ix2 r (0 : Fin 1))
      = v66 (ix2 r (0 : Fin 1)) + ∑ cc : Fin 1024, Scalar.select (v35 (ix2 r cc)) (v26 (ix2 r cc)) 0 := by
  unfold k0_pay14
  (try dsimp only)
  rw [shapeCast_self, addf_apply, col_apply, rowSum1024]
  refine congrArg₂ (· + ·) rfl (Finset.sum_congr rfl fun cc _ => ?_)
  rw [select_apply, broadcast_apply]
  exact congrArg (Scalar.select _ _) Ideal.ofBits_zero_f32

/-- The output: log of (the sum plus the exponential of the off-diagonal maximum relative to the maximum), plus the maximum, minus the diagonal sum. -/
theorem pay1_apply (v78 v79 v80 v85 v87 : FVec Ideal S1024x1 .f32) (j : S1024x1.Idx) :
    k0_pay1 (F := Ideal) v78 v79 v80 v85 v87 j = Ideal.log (v78 j + Ideal.exp (v79 j - v80 j)) + v85 j - v87 j := by
  unfold k0_pay1; (try dsimp only); rfl

/-! ## One point is one step of the walk, row by row -/

/-- If, at row `r`, the four carried columns hold the accumulator `A`, then after the point's update they hold `A` stepped
    by the block's scaled cosines of that row, the row's own column being the diagonal entry. -/
theorem step_apply (i : grid0.Coords) (x0 x1 : FVec Ideal S1024x256 .f32) (xs0 xs1 xs2 xs3 : FVec Ideal S1024x1 .f32)
    (r : Fin 1024) (A : Acc)
    (h0 : xs0 (ix2 r (0 : Fin 1)) = A.m) (h1 : xs1 (ix2 r (0 : Fin 1)) = A.l)
    (h2 : xs2 (ix2 r (0 : Fin 1)) = A.g) (h3 : xs3 (ix2 r (0 : Fin 1)) = A.dg) :
    k0_pay12 (F := Ideal) (k0_pay8 x0 x1) xs0 (ix2 r (0 : Fin 1)) = (A.step (sblk x0 x1 r) (onDiag i r)).m
    ∧ k0_pay11 (F := Ideal) (k0_pay6 x0 x1) (k0_pay8 x0 x1) xs0 xs0 xs1 (ix2 r (0 : Fin 1)) = (A.step (sblk x0 x1 r) (onDiag i r)).l
    ∧ k0_pay13 (F := Ideal) (k0_pay9 i x0 x1) xs2 (ix2 r (0 : Fin 1)) = (A.step (sblk x0 x1 r) (onDiag i r)).g
    ∧ k0_pay14 (F := Ideal) (k0_pay6 x0 x1) (k0_pay7 i) xs3 (ix2 r (0 : Fin 1)) = (A.step (sblk x0 x1 r) (onDiag i r)).dg := by
  refine ⟨?_, ?_, ?_, ?_⟩
  · rw [pay12_apply, pay8_apply, h0]; rfl
  · rw [pay11_apply, pay8_apply, h0, h1]
    simp only [pay6_apply]
    rfl
  · rw [pay13_apply, h2]
    simp only [pay9_apply]
    rfl
  · rw [pay14_apply, h3]
    refine congrArg₂ (· + ·) rfl (Finset.sum_congr rfl fun cc _ => ?_)
    rw [pay7_apply, pay6_apply]
    split
    · exact select_one _ _
    · exact select_zero _ _

/-- The output block at row `r` is the accumulator's output, once the four updated columns hold the accumulator. -/
theorem out_apply (vl vg vm vd : FVec Ideal S1024x1 .f32) (r : Fin 1024) (A : Acc)
    (h0 : vm (ix2 r (0 : Fin 1)) = A.m) (h1 : vl (ix2 r (0 : Fin 1)) = A.l)
    (h2 : vg (ix2 r (0 : Fin 1)) = A.g) (h3 : vd (ix2 r (0 : Fin 1)) = A.dg) :
    k0_pay1 (F := Ideal) vl vg vm vm vd (ix2 r (0 : Fin 1)) = A.out := by
  rw [pay1_apply, h0, h1, h2, h3]; rfl

/-- The columns a first point resets hold the empty accumulator. -/
theorem init_apply (r : Fin 1024) :
    k0_pay2 (F := Ideal) (ix2 r (0 : Fin 1)) = Acc.init.m ∧ k0_pay3 (F := Ideal) (ix2 r (0 : Fin 1)) = Acc.init.l
    ∧ k0_pay4 (F := Ideal) (ix2 r (0 : Fin 1)) = Acc.init.g ∧ k0_pay5 (F := Ideal) (ix2 r (0 : Fin 1)) = Acc.init.dg :=
  ⟨pay2_apply _, pay3_apply _, pay4_apply _, pay5_apply _⟩

end Cert.KernelIdeal.Read

end
-- ==== Proof.KWalk.lean ====
/-
  The carried columns, point by point, are the specification's walk along each row.

  The grid's point `t` is row block `t / 8` and column block `t % 8`; its first input block is rows
  `(t / 8) · 1024 + r` of the first array, its second input block rows `(t % 8) · 1024 + cc` of the second. So the block
  of scaled cosines the point forms is the stretch `(t % 8) · 1024 …` of the global row `(t / 8) · 1024 + r` of the scaled
  cosine matrix, its diagonal entry (if any) the row's own column. Along a row of the grid the four carried columns
  therefore hold, at row `r`, the accumulator of that global row after the column blocks walked so far — by induction on
  the column block: the first point starts from the columns it has just reset, every other point from what the point
  before left — and the last point's output block holds the accumulator's output.
-/
import proofs.«129074_j39118562132130_1_alg».proof.Proof.KPieces
import proofs.«129074_j39118562132130_1_alg».proof.Proof.KRead

set_option maxRecDepth 16384

noncomputable section

open Idealize.ShloMosaic Idealize.ShloMosaic.TcCoe Idealize.SL.Sem Idealize.ShloMosaic.ValueIdx

namespace Cert.KernelIdeal.Walk

open Cert.KernelIdeal Cert.KernelIdeal.Gen Cert.KernelIdeal.Read Cert.Contrast

variable (m : (ℓ : Loc nD τ sig) → Buf (Elt Ideal) ℓ) (c : Dev nD)

/-- The two argument arrays as the region finds them, by row and feature. -/
def argA : Fin 8192 → Fin 256 → EReal := fun i k => (V m c main_arg0 : FVec Ideal S8192x256 .f32) (ix2 i k)
def argP : Fin 8192 → Fin 256 → EReal := fun i k => (V m c main_arg1 : FVec Ideal S8192x256 .f32) (ix2 i k)

/-- Global row `i` of the scaled cosine matrix. -/
def rowS (i : Fin 8192) : Fin 8192 → EReal := fun j => cosine (argA m c) (argP m c) i j * scale

theorem lt64 (t : Fin cfg0.N) : t.val < 64 := lt_of_lt_of_eq t.isLt N_0

/-- Where the windows' blocks sit and what the point's coordinates are, decided once over the 64 points. -/
theorem grid_facts : ∀ t : Fin cfg0.N,
    win0_0.index t 0 = t.val / 8 ∧ win0_0.index t 1 = 0 ∧ win0_1.index t 0 = t.val % 8 ∧ win0_1.index t 1 = 0
    ∧ win0_2.index t 0 = t.val / 8 ∧ win0_2.index t 1 = 0
    ∧ ((grid0.coords t) 0).val = t.val / 8 ∧ ((grid0.coords t) 1).val = t.val % 8 :=
  (by decide +kernel : ∀ t : Fin grid0.N, _)

/-- The global row of row `r` of the point's row block, and the point's column block. -/
def grow (t : Fin cfg0.N) (r : Fin 1024) : Fin 8192 := ⟨t.val / 8 * 1024 + r.val, by have := lt64 t; have := r.isLt; omega⟩
def kbOf (t : Fin cfg0.N) : Fin 8 := ⟨t.val % 8, Nat.mod_lt _ (by decide)⟩

theorem iblk0_apply (t : Fin cfg0.N) (r : Fin 1024) (k : Fin 256) :
    (iblk m c 0 t : FVec Ideal S1024x256 .f32) (ix2 r k) = argA m c (grow t r) k := by
  unfold iblk argA
  rw [View.read_apply]
  show V m c main_arg0 _ = V m c main_arg0 _
  congr 1
  funext a
  apply Fin.ext
  match a with
  | ⟨0, _⟩ => show win0_0.index t 0 * 1024 + 1 * r.val = t.val / 8 * 1024 + r.val; rw [(grid_facts t).1]; omega
  | ⟨1, _⟩ => show win0_0.index t 1 * 256 + 1 * k.val = k.val; rw [(grid_facts t).2.1]; omega

theorem iblk1_apply (t : Fin cfg0.N) (cc : Fin 1024) (k : Fin 256) :
    (iblk m c 1 t : FVec Ideal S1024x256 .f32) (ix2 cc k) = argP m c (col (kbOf t) cc) k := by
  unfold iblk argP
  rw [View.read_apply]
  show V m c main_arg1 _ = V m c main_arg1 _
  congr 1
  funext a
  apply Fin.ext
  match a with
  | ⟨0, _⟩ => show win0_1.index t 0 * 1024 + 1 * cc.val = t.val % 8 * 1024 + cc.val; rw [(grid_facts t).2.2.1]; omega
  | ⟨1, _⟩ => show win0_1.index t 1 * 256 + 1 * k.val = k.val; rw [(grid_facts t).2.2.2.1]; omega

/-- The point's block of scaled cosines is a stretch of a global row of the scaled cosine matrix. -/
theorem sblk_eq (t : Fin cfg0.N) (r cc : Fin 1024) :
    sblk (iblk m c 0 t) (iblk m c 1 t) r cc = rowS m c (grow t r) (col (kbOf t) cc) := by
  unfold sblk rowS cosine
  refine congrArg (· * scale) (Finset.sum_congr rfl fun k _ => ?_)
  have ea : rowOf (iblk m c 0 t) r = argA m c (grow t r) := funext fun k => iblk0_apply m c t r k
  have ep : rowOf (iblk m c 1 t) cc = argP m c (col (kbOf t) cc) := funext fun k => iblk1_apply m c t cc k
  rw [ea, ep]
  rfl

/-- The point's diagonal is the row's own column. -/
theorem onDiag_iff (t : Fin cfg0.N) (r cc : Fin 1024) : onDiag (grid0.coords t) r cc ↔ col (kbOf t) cc = grow t r := by
  have h6 := (grid_facts t).2.2.2.2.2.2
  constructor
  · intro h
    apply Fin.ext
    show t.val % 8 * 1024 + cc.val = t.val / 8 * 1024 + r.val
    have h' : ((grid0.coords t) 0).val * 1024 + r.val = ((grid0.coords t) 1).val * 1024 + cc.val := h
    rw [h6.1, h6.2] at h'
    omega
  · intro h
    have h' : t.val % 8 * 1024 + cc.val = t.val / 8 * 1024 + r.val := congrArg Fin.val h
    show ((grid0.coords t) 0).val * 1024 + r.val = ((grid0.coords t) 1).val * 1024 + cc.val
    rw [h6.1, h6.2]
    omega

/-- A step depends only on the entries and on which column is the row's own. -/
theorem step_congr {T : ℕ} (A : Acc) (s s' : Fin T → EReal) (own own' : Fin T → Prop) [DecidablePred own] [DecidablePred own']
    (hs : ∀ jj, s jj = s' jj) (ho : ∀ jj, own jj ↔ own' jj) : A.step s own = A.step s' own' := by
  obtain rfl : s = s' := funext hs
  obtain rfl : own = own' := funext fun jj => propext (ho jj)
  congr

/-- The walk's recursion, one block further. -/
theorem acc_succ (s : Fin 8192 → EReal) (i : Fin 8192) (k : ℕ) (hk : k < 8) :
    acc s i (k + 1) = (acc s i k).step (fun jj => s (col ⟨k, hk⟩ jj)) (fun jj => col ⟨k, hk⟩ jj = i) := by
  rw [acc, dif_pos hk]

/-- The accumulator `A` of global row `grow t r` stepped by the point's column block. -/
def stepAt (t : Fin cfg0.N) (r : Fin 1024) (A : Acc) : Acc :=
  A.step (fun jj => rowS m c (grow t r) (col (kbOf t) jj)) (fun jj => col (kbOf t) jj = grow t r)

/-- One point: if at row `r` the carried columns hold `A`, the updated columns hold `A` stepped by the point's block. -/
theorem point_step (t : Fin cfg0.N) (r : Fin 1024) (A : Acc) (xs0 xs1 xs2 xs3 : FVec Ideal S1024x1 .f32)
    (h0 : xs0 (ix2 r (0 : Fin 1)) = A.m) (h1 : xs1 (ix2 r (0 : Fin 1)) = A.l)
    (h2 : xs2 (ix2 r (0 : Fin 1)) = A.g) (h3 : xs3 (ix2 r (0 : Fin 1)) = A.dg) :
    k0_pay12 (F := Ideal) (k0_pay8 (iblk m c 0 t) (iblk m c 1 t)) xs0 (ix2 r (0 : Fin 1)) = (stepAt m c t r A).m
    ∧ k0_pay11 (F := Ideal) (k0_pay6 (iblk m c 0 t) (iblk m c 1 t)) (k0_pay8 (iblk m c 0 t) (iblk m c 1 t)) xs0 xs0 xs1 (ix2 r (0 : Fin 1)) = (stepAt m c t r A).l
    ∧ k0_pay13 (F := Ideal) (k0_pay9 (grid0.coords t) (iblk m c 0 t) (iblk m c 1 t)) xs2 (ix2 r (0 : Fin 1)) = (stepAt m c t r A).g
    ∧ k0_pay14 (F := Ideal) (k0_pay6 (iblk m c 0 t) (iblk m c 1 t)) (k0_pay7 (grid0.coords t)) xs3 (ix2 r (0 : Fin 1)) = (stepAt m c t r A).dg := by
  have hs := step_apply (grid0.coords t) (iblk m c 0 t) (iblk m c 1 t) xs0 xs1 xs2 xs3 r A h0 h1 h2 h3
  have e : A.step (sblk (iblk m c 0 t) (iblk m c 1 t) r) (onDiag (grid0.coords t) r) = stepAt m c t r A :=
    step_congr A _ _ _ _ (fun jj => sblk_eq m c t r jj) (fun jj => onDiag_iff t r jj)
  rw [e] at hs
  exact hs

/-! ## The three kinds of point -/

/-- The first point of a row of the grid: the columns it resets, stepped by its block. -/
theorem case_A (t : Fin cfg0.N) (h0 : t.val % 8 = 0) (h1 : ¬t.val % 8 = 7) (r : Fin 1024) :
    (outsAt0 m c t.val t.isLt).2.1 (ix2 r (0 : Fin 1)) = (stepAt m c t r Acc.init).m
      ∧ (outsAt0 m c t.val t.isLt).2.2.1 (ix2 r (0 : Fin 1)) = (stepAt m c t r Acc.init).l
      ∧ (outsAt0 m c t.val t.isLt).2.2.2.1 (ix2 r (0 : Fin 1)) = (stepAt m c t r Acc.init).g
      ∧ (outsAt0 m c t.val t.isLt).2.2.2.2 (ix2 r (0 : Fin 1)) = (stepAt m c t r Acc.init).dg := by
  have hi := init_apply r
  have hs := point_step m c t r Acc.init (k0_pay2 (F := Ideal)) (k0_pay3 (F := Ideal)) (k0_pay4 (F := Ideal)) (k0_pay5 (F := Ideal)) hi.1 hi.2.1 hi.2.2.1 hi.2.2.2
  refine ⟨?_, ?_, ?_, ?_⟩
  · rw [outsAt0_A m c t h0 h1]; dsimp only
    rw [Pieces.sout_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact hs.1
  · rw [outsAt0_A m c t h0 h1]; dsimp only
    rw [Pieces.sout_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact hs.2.1
  · rw [outsAt0_A m c t h0 h1]; dsimp only
    rw [Pieces.sout_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact hs.2.2.1
  · rw [outsAt0_A m c t h0 h1]; dsimp only
    rw [Pieces.sout_A_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact hs.2.2.2

/-- A middle point: what the point before left, stepped by its block. -/
theorem case_B (t : Fin cfg0.N) (h0 : ¬t.val % 8 = 0) (h1 : ¬t.val % 8 = 7) (r : Fin 1024) (A : Acc)
    (hp0 : (outsAt0 m c (t.val - 1) (Nat.lt_of_le_of_lt (Nat.sub_le _ _) t.isLt)).2.1 (ix2 r (0 : Fin 1)) = A.m) (hp1 : (outsAt0 m c (t.val - 1) (Nat.lt_of_le_of_lt (Nat.sub_le _ _) t.isLt)).2.2.1 (ix2 r (0 : Fin 1)) = A.l)
    (hp2 : (outsAt0 m c (t.val - 1) (Nat.lt_of_le_of_lt (Nat.sub_le _ _) t.isLt)).2.2.2.1 (ix2 r (0 : Fin 1)) = A.g) (hp3 : (outsAt0 m c (t.val - 1) (Nat.lt_of_le_of_lt (Nat.sub_le _ _) t.isLt)).2.2.2.2 (ix2 r (0 : Fin 1)) = A.dg) :
    (outsAt0 m c t.val t.isLt).2.1 (ix2 r (0 : Fin 1)) = (stepAt m c t r A).m
      ∧ (outsAt0 m c t.val t.isLt).2.2.1 (ix2 r (0 : Fin 1)) = (stepAt m c t r A).l
      ∧ (outsAt0 m c t.val t.isLt).2.2.2.1 (ix2 r (0 : Fin 1)) = (stepAt m c t r A).g
      ∧ (outsAt0 m c t.val t.isLt).2.2.2.2 (ix2 r (0 : Fin 1)) = (stepAt m c t r A).dg := by
  have hs := point_step m c t r A (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hp0 hp1 hp2 hp3
  refine ⟨?_, ?_, ?_, ?_⟩
  · rw [outsAt0_B m c t h0 h1]; dsimp only
    rw [Pieces.sout_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.1
  · rw [outsAt0_B m c t h0 h1]; dsimp only
    rw [Pieces.sout_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.1
  · rw [outsAt0_B m c t h0 h1]; dsimp only
    rw [Pieces.sout_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.2.1
  · rw [outsAt0_B m c t h0 h1]; dsimp only
    rw [Pieces.sout_B_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.2.2

/-- The last point of a row of the grid: the same step, and the output block is the stepped accumulator's output. -/
theorem case_C (t : Fin cfg0.N) (h0 : ¬t.val % 8 = 0) (h1 : t.val % 8 = 7) (r : Fin 1024) (A : Acc)
    (hp0 : (outsAt0 m c (t.val - 1) (Nat.lt_of_le_of_lt (Nat.sub_le _ _) t.isLt)).2.1 (ix2 r (0 : Fin 1)) = A.m) (hp1 : (outsAt0 m c (t.val - 1) (Nat.lt_of_le_of_lt (Nat.sub_le _ _) t.isLt)).2.2.1 (ix2 r (0 : Fin 1)) = A.l)
    (hp2 : (outsAt0 m c (t.val - 1) (Nat.lt_of_le_of_lt (Nat.sub_le _ _) t.isLt)).2.2.2.1 (ix2 r (0 : Fin 1)) = A.g) (hp3 : (outsAt0 m c (t.val - 1) (Nat.lt_of_le_of_lt (Nat.sub_le _ _) t.isLt)).2.2.2.2 (ix2 r (0 : Fin 1)) = A.dg) :
    (outsAt0 m c t.val t.isLt).2.1 (ix2 r (0 : Fin 1)) = (stepAt m c t r A).m
      ∧ (outsAt0 m c t.val t.isLt).2.2.1 (ix2 r (0 : Fin 1)) = (stepAt m c t r A).l
      ∧ (outsAt0 m c t.val t.isLt).2.2.2.1 (ix2 r (0 : Fin 1)) = (stepAt m c t r A).g
      ∧ (outsAt0 m c t.val t.isLt).2.2.2.2 (ix2 r (0 : Fin 1)) = (stepAt m c t r A).dg
      ∧ (outsAt0 m c t.val t.isLt).1 (ix2 r (0 : Fin 1)) = (stepAt m c t r A).out := by
  have hs := point_step m c t r A (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 hp0 hp1 hp2 hp3
  refine ⟨?_, ?_, ?_, ?_, ?_⟩
  · rw [outsAt0_C m c t h0 h1]; dsimp only
    rw [Pieces.sout_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.1
  · rw [outsAt0_C m c t h0 h1]; dsimp only
    rw [Pieces.sout_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.1
  · rw [outsAt0_C m c t h0 h1]; dsimp only
    rw [Pieces.sout_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.2.1
  · rw [outsAt0_C m c t h0 h1]; dsimp only
    rw [Pieces.sout_C_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact hs.2.2.2
  · rw [outsAt0_C m c t h0 h1]; dsimp only
    rw [Pieces.out_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact out_apply (k0_pay11 (F := Ideal) (k0_pay6 (iblk m c 0 t) (iblk m c 1 t)) (k0_pay8 (iblk m c 0 t) (iblk m c 1 t)) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) (k0_pay13 (F := Ideal) (k0_pay9 (grid0.coords t) (iblk m c 0 t) (iblk m c 1 t)) (outsAt0 m c (t.val - 1) (Nat.lt_of_le_of_lt (Nat.sub_le _ _) t.isLt)).2.2.2.1) (k0_pay12 (F := Ideal) (k0_pay8 (iblk m c 0 t) (iblk m c 1 t)) (outsAt0 m c (t.val - 1) (Nat.lt_of_le_of_lt (Nat.sub_le _ _) t.isLt)).2.1) (k0_pay14 (F := Ideal) (k0_pay6 (iblk m c 0 t) (iblk m c 1 t)) (k0_pay7 (grid0.coords t)) (outsAt0 m c (t.val - 1) (Nat.lt_of_le_of_lt (Nat.sub_le _ _) t.isLt)).2.2.2.2) r (stepAt m c t r A) hs.1 hs.2.1 hs.2.2.1 hs.2.2.2

/-! ## Along a row of the grid -/

/-- Global row `q · 1024 + r`. -/
def gi (q : ℕ) (hq : q < 8) (r : Fin 1024) : Fin 8192 := ⟨q * 1024 + r.val, by have := r.isLt; omega⟩

theorem outsAt0_congr (n n' : ℕ) (e : n = n') (h : n < cfg0.N) (h' : n' < cfg0.N) : outsAt0 m c n h = outsAt0 m c n' h' := by
  subst e; rfl

/-- After column block `kb` of grid row `q` the carried columns hold, at row `r`, the accumulator of global row
    `q · 1024 + r` after `kb + 1` blocks; and the last point's output block holds its output. -/
theorem walk (q : ℕ) (hq : q < 8) (r : Fin 1024) :
    ∀ (kb : ℕ) (hk : kb < 8) (h : q * 8 + kb < cfg0.N),
      (outsAt0 m c (q * 8 + kb) h).2.1 (ix2 r (0 : Fin 1)) = (acc (rowS m c (gi q hq r)) (gi q hq r) (kb + 1)).m
      ∧ (outsAt0 m c (q * 8 + kb) h).2.2.1 (ix2 r (0 : Fin 1)) = (acc (rowS m c (gi q hq r)) (gi q hq r) (kb + 1)).l
      ∧ (outsAt0 m c (q * 8 + kb) h).2.2.2.1 (ix2 r (0 : Fin 1)) = (acc (rowS m c (gi q hq r)) (gi q hq r) (kb + 1)).g
      ∧ (outsAt0 m c (q * 8 + kb) h).2.2.2.2 (ix2 r (0 : Fin 1)) = (acc (rowS m c (gi q hq r)) (gi q hq r) (kb + 1)).dg
      ∧ (kb = 7 → (outsAt0 m c (q * 8 + kb) h).1 (ix2 r (0 : Fin 1)) = (acc (rowS m c (gi q hq r)) (gi q hq r) 8).out)
  | 0, hk, h => by
    have hA := case_A m c ⟨q * 8 + 0, h⟩ (by show (q * 8 + 0) % 8 = 0; omega) (by show ¬(q * 8 + 0) % 8 = 7; omega) r
    have hg : grow (⟨q * 8 + 0, h⟩ : Fin cfg0.N) r = gi q hq r := Fin.ext (by show (q * 8 + 0) / 8 * 1024 + r.val = q * 1024 + r.val; omega)
    have hkb : kbOf (⟨q * 8 + 0, h⟩ : Fin cfg0.N) = ⟨0, hk⟩ := Fin.ext (by show (q * 8 + 0) % 8 = 0; omega)
    have hst : stepAt m c ⟨q * 8 + 0, h⟩ r Acc.init = acc (rowS m c (gi q hq r)) (gi q hq r) (0 + 1) := by
      rw [acc_succ _ _ 0 hk]
      unfold stepAt
      rw [hg, hkb]
      rfl
    rw [hst] at hA
    exact ⟨hA.1, hA.2.1, hA.2.2.1, hA.2.2.2, fun h7 => absurd h7 (by decide)⟩
  | kb + 1, hk, h => by
    have ih := walk q hq r kb (by omega) (by omega)
    have hpred : (⟨q * 8 + (kb + 1), h⟩ : Fin cfg0.N).val - 1 = q * 8 + kb := by show q * 8 + (kb + 1) - 1 = q * 8 + kb; omega
    have hprev := outsAt0_congr m c _ _ hpred (Nat.lt_of_le_of_lt (Nat.sub_le _ _) (⟨q * 8 + (kb + 1), h⟩ : Fin cfg0.N).isLt) (by omega)
    have h0 : ¬(⟨q * 8 + (kb + 1), h⟩ : Fin cfg0.N).val % 8 = 0 := by show ¬(q * 8 + (kb + 1)) % 8 = 0; omega
    have hg : grow (⟨q * 8 + (kb + 1), h⟩ : Fin cfg0.N) r = gi q hq r := Fin.ext (by show (q * 8 + (kb + 1)) / 8 * 1024 + r.val = q * 1024 + r.val; omega)
    have hkb : kbOf (⟨q * 8 + (kb + 1), h⟩ : Fin cfg0.N) = ⟨kb + 1, hk⟩ := Fin.ext (by show (q * 8 + (kb + 1)) % 8 = kb + 1; omega)
    have hst : stepAt m c ⟨q * 8 + (kb + 1), h⟩ r (acc (rowS m c (gi q hq r)) (gi q hq r) (kb + 1))
        = acc (rowS m c (gi q hq r)) (gi q hq r) (kb + 1 + 1) := by
      rw [acc_succ _ _ (kb + 1) hk]
      unfold stepAt
      rw [hg, hkb]
    have p0 := (congrArg (fun o => o.2.1 (ix2 r (0 : Fin 1))) hprev).trans ih.1
    have p1 := (congrArg (fun o => o.2.2.1 (ix2 r (0 : Fin 1))) hprev).trans ih.2.1
    have p2 := (congrArg (fun o => o.2.2.2.1 (ix2 r (0 : Fin 1))) hprev).trans ih.2.2.1
    have p3 := (congrArg (fun o => o.2.2.2.2 (ix2 r (0 : Fin 1))) hprev).trans ih.2.2.2.1
    by_cases h7 : kb + 1 = 7
    · have h1 : (⟨q * 8 + (kb + 1), h⟩ : Fin cfg0.N).val % 8 = 7 := by show (q * 8 + (kb + 1)) % 8 = 7; omega
      have hC := case_C m c ⟨q * 8 + (kb + 1), h⟩ h0 h1 r _ p0 p1 p2 p3
      rw [hst] at hC
      refine ⟨hC.1, hC.2.1, hC.2.2.1, hC.2.2.2.1, fun _ => ?_⟩
      have h8 : kb + 1 + 1 = 8 := by omega
      have h9 := hC.2.2.2.2
      rw [h8] at h9
      exact h9
    · have h1 : ¬(⟨q * 8 + (kb + 1), h⟩ : Fin cfg0.N).val % 8 = 7 := by show ¬(q * 8 + (kb + 1)) % 8 = 7; omega
      have hB := case_B m c ⟨q * 8 + (kb + 1), h⟩ h0 h1 r _ p0 p1 p2 p3
      rw [hst] at hB
      exact ⟨hB.1, hB.2.1, hB.2.2.1, hB.2.2.2, fun h7' => absurd h7' h7⟩

end Cert.KernelIdeal.Walk

end
-- ==== Proof.KFinal.lean ====
/-
  The kernel's result.

  The output column is written back once per row of the grid, by its last point: block `q` of the 8192 × 1 result array
  receives, at row `r`, the output of the accumulator of global row `q · 1024 + r` after all 8 column blocks, which is
  the specification's loss of that row. The 8 blocks tile the array, so the array ends holding every row's loss; the
  lines after the region add the 8192 losses to zero and divide by 8192: the specification's mean.
-/
import proofs.«129074_j39118562132130_1_alg».proof.Proof.KWalk
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Read Cert.KernelIdeal.Walk Cert.Contrast

variable (m : (ℓ : Loc nD τ sig) → Buf (Elt Ideal) ℓ) (ρ : Dev nD → PrngReg) (c : Dev nD)

/-- The result column: row `i` holds the loss of row `i`. -/
def rowLossV : FVec Ideal S8192x1 .f32 := fun j => kernelRow (argA m c) (argP m c) ⟨(j 0).val, (j 0).isLt⟩

abbrev rowLoss : Buf (Elt Ideal) ((c : Thread nD τ).loc main_v0) := rowLossV m c

theorem out_facts : ∀ t : Fin cfg0.N, win0_2.xsize (grid0.coords t) 0 = 1024 ∧ win0_2.xsize (grid0.coords t) 1 = 1 :=
  (by decide +kernel : ∀ t : Fin grid0.N, _)

/-- What the last point of a row of the grid writes back is its block of the result column. -/
theorem flushed_eq (t : Fin cfg0.N) (hf : (cfg0.win 2).flush t = true) :
    (dats m 0 c).flushed 2 t = ((cfg0.win 2).blk t).view.read (Elt Ideal) (rowLoss m c) := by
  have h7 : t.val % 8 = 7 := (flush0_2 t).mp hf
  have h64 := lt64 t
  show (cfg0.win 2).cut (grid0.coords t) ((dats m 0 c).after 2 t) = _
  rw [after0_2]
  funext y
  obtain ⟨r, u, rfl⟩ : ∃ (r : Fin 1024) (u : Fin 1), y = ix2 r u := ⟨y 0, y 1, eq_ix2 y⟩
  obtain rfl : u = 0 := Subsingleton.elim _ _
  rw [View.read_apply]
  show (outsAt0 m c t.val t.isLt).1 (ix2 r (0 : Fin 1)) = rowLossV m c _
  have hq : t.val / 8 < 8 := by omega
  have hn : t.val / 8 * 8 + 7 = t.val := by omega
  have hlt : t.val / 8 * 8 + 7 < cfg0.N := by rw [hn]; exact t.isLt
  have hw := (walk m c (t.val / 8) hq r 7 (by decide) hlt).2.2.2.2 rfl
  have ho := outsAt0_congr m c (t.val / 8 * 8 + 7) t.val hn hlt t.isLt
  rw [← ho, hw]
  unfold rowLossV
  have hi : ∀ hb, (⟨((((cfg0.win 2).blk t).view.emb (ix2 r (0 : Fin 1))) 0).val, hb⟩ : Fin 8192) = gi (t.val / 8) hq r := fun hb =>
    Fin.ext (by show win0_2.index t 0 * 1024 + 1 * r.val = t.val / 8 * 1024 + r.val; rw [(grid_facts t).2.2.2.2.1]; omega)
  exact (congrArg (kernelRow (argA m c) (argP m c)) (hi _)).symm

/-- Every row of the result column lies in the block some last point writes back. -/
theorem cover (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 8192 := (i 0).isLt
  have hi1 : (i 1 : Nat) < 1 := (i 1).isLt
  have hN : cfg0.N = 64 := N_0
  have ht : (i 0 : Nat) / 1024 * 8 + 7 < cfg0.N := by omega
  refine ⟨⟨(i 0 : Nat) / 1024 * 8 + 7, ht⟩, (flush0_2 _).mpr (by show ((i 0 : Nat) / 1024 * 8 + 7) % 8 = 7; omega), ?_⟩
  show i ∈ ((View.whole main_v0).slice (win0_2.rect ⟨(i 0 : Nat) / 1024 * 8 + 7, ht⟩)).set
  rw [View.set_slice_whole, Rect.mem_set_unit]
  intro a
  have gf := grid_facts ⟨(i 0 : Nat) / 1024 * 8 + 7, ht⟩
  have xf := out_facts ⟨(i 0 : Nat) / 1024 * 8 + 7, ht⟩
  match a with
  | ⟨0, _⟩ =>
    show win0_2.index ⟨(i 0 : Nat) / 1024 * 8 + 7, ht⟩ 0 * win0_2.size 0 ≤ (i 0 : Nat) ∧ (i 0 : Nat) < win0_2.index ⟨(i 0 : Nat) / 1024 * 8 + 7, ht⟩ 0 * win0_2.size 0 + win0_2.xsize (grid0.coords ⟨(i 0 : Nat) / 1024 * 8 + 7, ht⟩) 0
    rw [gf.2.2.2.2.1, xf.1, show win0_2.size 0 = 1024 from rfl]
    show ((i 0 : Nat) / 1024 * 8 + 7) / 8 * 1024 ≤ (i 0 : Nat) ∧ (i 0 : Nat) < ((i 0 : Nat) / 1024 * 8 + 7) / 8 * 1024 + 1024
    omega
  | ⟨1, _⟩ =>
    show win0_2.index ⟨(i 0 : Nat) / 1024 * 8 + 7, ht⟩ 1 * win0_2.size 1 ≤ (i 1 : Nat) ∧ (i 1 : Nat) < win0_2.index ⟨(i 0 : Nat) / 1024 * 8 + 7, ht⟩ 1 * win0_2.size 1 + win0_2.xsize (grid0.coords ⟨(i 0 : Nat) / 1024 * 8 + 7, ht⟩) 1
    rw [gf.2.2.2.2.2.1, xf.2]
    omega

/-- So the result column ends holding every row's loss. -/
theorem final : (dats m 0 c).arrAt 2 cfg0.N = rowLoss m c :=
  (dats m 0 c).arrAt_eq_of_cover 2 (rowLoss m c) (flushed_eq m c) (cover c)

/-- The host's sum of a column of 8192 numbers, from zero, is the sum of its rows. -/
theorem total_sum (y : FVec Ideal S8192x1 .f32) (i : S_.Idx) :
    Host.reduceAdd (F := Ideal) y (constant S_ .f32 0x00000000#32) reducesTo_S8192x1_S_d0_1 h_S_ i
      = ∑ r : Fin 8192, y (ix2 r (0 : Fin 1)) := by
  simp only [Host.reduceAdd, Ideal.hostReduceAdd_def]
  rw [Ideal.hostReduceAdd_total reducesTo_S8192x1_S_d0_1 (fun b => b.elim0) y _ i]
  show Ideal.ofBits .f32 0x00000000#32 + _ = _
  rw [Ideal.ofBits_zero_f32, zero_add, sum_idx2]
  exact Finset.sum_congr rfl fun a _ => Fin.sum_univ_one _

/-- The lines after the region: the sum of the column added to zero, divided by 8192. -/
theorem tail_eq : Pipeline.afterTail₀ cfgs (dats m) 0 (V0 m) [hostOps1] c main_v2 = fun _ => kernelLoss (argA m c) (argP m c) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.tc.devRef main_v0) = rowLoss m c :=
    (Pipeline.withArrays_arr spec0 launch0.win.arr_inj c _ _ 2).trans (final m c)
  rw [hW]
  funext x
  show Ideal.div (Host.reduceAdd (F := Ideal) (rowLossV m c) (constant S_ .f32 0x00000000#32) reducesTo_S8192x1_S_d0_1 h_S_ x) (Ideal.ofBits .f32 0x46000000#32) = _
  rw [total_sum]
  rfl

/-- The kernel's run, read: its result is the specification's kernel loss of the two argument arrays, which end unchanged. -/
theorem run : θ_run defs (onTc (τ := τ) (main (F := Ideal))) ⟨m, fun _ => 0, ρ⟩ fun r => ∀ c : Dev nD,
      r.2.mem ((c.tc : Thread nD τ).loc main_v2) = (fun _ => kernelLoss (argA m c) (argP m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Result

end
-- ==== Proof.LossConsts.lean ====
/-
  The three float words the two losses mention, evaluated once as real numbers, and the one relation between
  them that the comparison needs: the kernel's scale is the reciprocal of the reference's temperature, so
  dividing any extended real by the temperature is multiplying it by the scale.
-/
import proofs.«129074_j39118562132130_1_alg».proof.Proof.Spec

noncomputable section

namespace Cert.Contrast

open Idealize.ShloMosaic

/-- The real number the small constant denotes: sign bit clear, exponent field 87, fraction field 834764,
    hence (2^23 + 834764) · 2^(87 − 127 − 23) = 9223372 · 2^(−63). -/
def epsR : ℝ := 9223372 * (2 : ℝ) ^ (-63 : Int)

theorem epsR_pos : 0 < epsR := by
  unfold epsR
  positivity

theorem eps_eq : eps = ((epsR : ℝ) : EReal) := by
  unfold eps epsR
  simp [Ideal.ofBits, Ideal.ieee]

/-- The temperature's word has exponent field 123 and fraction field 1006633: (2^23 + 1006633) · 2^(−27). -/
theorem temperature_eq : temperature = ((9395241 / 134217728 : ℝ) : EReal) := by
  unfold temperature
  simp [Ideal.ofBits, Ideal.ieee]
  rw [← EReal.coe_mul]
  norm_num

/-- The row count's word has exponent field 140 and fraction field 0: 2^23 · 2^(−10) = 8192. -/
theorem rowCount_eq : rowCount = ((8192 : ℝ) : EReal) := by
  unfold rowCount
  simp [Ideal.ofBits, Ideal.ieee]
  rw [← EReal.coe_mul]
  norm_num

/-- The kernel's scale as a real number; it is positive. -/
def scaleR : ℝ := 134217728 / 9395241

theorem scaleR_pos : 0 < scaleR := by
  unfold scaleR
  norm_num

theorem scale_eq : scale = ((scaleR : ℝ) : EReal) := rfl

/-- The temperature is a nonzero real, so dividing by it is multiplying by its reciprocal, at the two
    infinities as well; and its reciprocal is the scale. -/
theorem div_temperature (x : EReal) : Ideal.div x temperature = x * scale := by
  have h : (1 / (9395241 / 134217728 : ℝ)) = scaleR := by
    unfold scaleR
    norm_num
  rw [temperature_eq, Ideal.div_coe (by norm_num) x, h, scale_eq]

/-- Dividing by the row count is multiplying by 1/8192. -/
theorem div_rowCount (x : EReal) : Ideal.div x rowCount = x * (((1 / 8192 : ℝ)) : EReal) := by
  rw [rowCount_eq, Ideal.div_coe (by norm_num) x]

end Cert.Contrast

end
-- ==== Proof.LossReal.lean ====
/-
  Finite inputs make every cosine a real number.

  A row of finite entries has a real sum of squares, which is not negative, so its square root is the real square
  root; the larger of that root and the small positive constant is a positive real, so the division by it is the
  real division. Each normalised entry is therefore (the coercion of) a real, and a cosine, a finite sum of
  products of such entries, is one too. Two general facts are recorded first: a finite sum of coerced reals is the
  coerced real sum, and folding the larger-of-two operation from the bottom element over a finite set gives the
  set's supremum.
-/
import proofs.«129074_j39118562132130_1_alg».proof.Proof.LossConsts

noncomputable section

namespace Cert.Contrast

open Idealize.ShloMosaic

/-- A finite sum of reals, each read as an extended real, is the real sum read as an extended real. -/
theorem coe_sum {ι : Type} (S : Finset ι) (f : ι → ℝ) :
    (∑ k ∈ S, (f k : EReal)) = ((∑ k ∈ S, f k : ℝ) : EReal) := by
  classical
  induction S using Finset.induction_on with
  | empty => simp
  | insert a S ha ih => rw [Finset.sum_insert ha, Finset.sum_insert ha, ih, EReal.coe_add]

/-- Folding the larger-of-two operation from the bottom element over a finite set is the set's supremum. -/
theorem fold_max_eq_sup {ι : Type} (S : Finset ι) (f : ι → EReal) : S.fold max ⊥ f = S.sup f := by
  classical
  induction S using Finset.induction_on with
  | empty => simp
  | insert a S ha ih => rw [Finset.fold_insert ha, Finset.sup_insert, ih]

/-- The supremum of finitely many reals over a nonempty set is one of them, hence real. -/
theorem sup_real {ι : Type} (S : Finset ι) (hS : S.Nonempty) (f : ι → EReal) (hf : ∀ j ∈ S, ∃ r : ℝ, f j = (r : EReal)) :
    ∃ r : ℝ, S.sup f = (r : EReal) := by
  obtain ⟨j, hj, h⟩ := Finset.exists_mem_eq_sup S hS f
  obtain ⟨r, hr⟩ := hf j hj
  exact ⟨r, h.trans hr⟩

/-- Each entry of a finite row, divided by the row's norm kept above the small constant, is a real. -/
theorem unit_real (x : Fin 8192 → Fin 256 → EReal) (hx : ∀ i k, x i k ≠ ⊥ ∧ x i k ≠ ⊤) (i : Fin 8192) (k : Fin 256) :
    ∃ u : ℝ, unit x i k = (u : EReal) := by
  have hex : ∀ k', ∃ r : ℝ, x i k' = (r : EReal) := fun k' =>
    ⟨(x i k').toReal, (EReal.coe_toReal (hx i k').2 (hx i k').1).symm⟩
  choose r hr using hex
  -- the sum of squares is a real, and it is not negative
  have hsum : (∑ k', x i k' * x i k') = ((∑ k', r k' * r k' : ℝ) : EReal) := by
    rw [← coe_sum]
    refine Finset.sum_congr rfl fun k' _ => ?_
    rw [hr k', EReal.coe_mul]
  have hnn : 0 ≤ ∑ k', r k' * r k' := Finset.sum_nonneg fun k' _ => mul_self_nonneg _
  -- so the divisor is the larger of two reals, the second of them positive
  have hy : max (Ideal.sqrt (∑ k', x i k' * x i k')) eps
      = ((max (Real.sqrt (∑ k', r k' * r k')) epsR : ℝ) : EReal) := by
    rw [hsum, Ideal.sqrt_coe, if_neg (not_lt.mpr hnn), eps_eq]
    exact (EReal.coe_strictMono.monotone.map_max).symm
  have hpos : max (Real.sqrt (∑ k', r k' * r k')) epsR ≠ 0 :=
    (lt_of_lt_of_le epsR_pos (le_max_right _ _)).ne'
  refine ⟨r k * (1 / max (Real.sqrt (∑ k', r k' * r k')) epsR), ?_⟩
  unfold unit
  rw [hy, Ideal.div_coe hpos, hr k, EReal.coe_mul]

/-- A cosine between two finite rows is a real. -/
theorem cosine_real (a p : Fin 8192 → Fin 256 → EReal)
    (ha : ∀ i k, a i k ≠ ⊥ ∧ a i k ≠ ⊤) (hp : ∀ i k, p i k ≠ ⊥ ∧ p i k ≠ ⊤) (i j : Fin 8192) :
    ∃ c : ℝ, cosine a p i j = (c : EReal) := by
  choose u hu using fun k => unit_real a ha i k
  choose v hv using fun k => unit_real p hp j k
  refine ⟨∑ k, u k * v k, ?_⟩
  unfold cosine
  rw [← coe_sum]
  refine Finset.sum_congr rfl fun k _ => ?_
  rw [hu, hv, EReal.coe_mul]

end Cert.Contrast

end
-- ==== Proof.RowBlocks.lean ====
/-
  The kernel's walk along one row, read as a statement about the set of columns seen so far.

  Write S for the set of columns of the blocks already walked. The four numbers the walk keeps are then: the
  supremum over S of the row's entries; the sum over S of the exponentials of the entries taken relative to that
  supremum; the supremum over S of the entries with the row's own column replaced by the bottom element; and the
  sum over S of the entries that sit on the row's own column. Walking one more block replaces S by its union with
  that block. The supremum of a union is the larger of the two suprema, sums over a disjoint union add, and the
  only step with content is the sum of exponentials: the old sum was taken relative to the old supremum m and has
  to be re-based to the new one m', which is what its factor exp (m - m') does, because
  exp (m - m') * exp (x - m) = exp (x - m') for real numbers. Before the first block S is empty, the old supremum
  is the bottom element and the old sum is zero, and zero times anything is zero.
-/
import proofs.«129074_j39118562132130_1_alg».proof.Proof.LossReal

noncomputable section

namespace Cert.Contrast

open Idealize.ShloMosaic

/-! ## What one step does to each of the four numbers -/

section Step
variable {T : ℕ} (A : Acc) (s : Fin T → EReal) (own : Fin T → Prop) [DecidablePred own]

theorem step_m : (A.step s own).m = max A.m (Finset.univ.sup s) := by
  rw [← fold_max_eq_sup]; rfl

theorem step_l : (A.step s own).l
    = Ideal.exp (A.m - (A.step s own).m) * A.l + ∑ jj, Ideal.exp (s jj - (A.step s own).m) := rfl

theorem step_g : (A.step s own).g = max A.g (Finset.univ.sup fun jj => if own jj then ⊥ else s jj) := by
  rw [← fold_max_eq_sup]; rfl

theorem step_dg : (A.step s own).dg = A.dg + ∑ jj, if own jj then s jj else 0 := rfl

end Step

/-! ## The blocks of columns -/

/-- The columns of the first `k` blocks. -/
def seen (k : ℕ) : Finset (Fin 8192) := Finset.univ.filter fun j => j.val < k * 1024

theorem col_injective (kb : Fin 8) : Function.Injective (col kb) := by
  intro x y h
  have h' := congrArg Fin.val h
  simp only [col] at h'
  exact Fin.ext (by omega)

/-- The columns of block `kb`. -/
def block (kb : Fin 8) : Finset (Fin 8192) := Finset.univ.map ⟨col kb, col_injective kb⟩

theorem mem_seen (k : ℕ) (j : Fin 8192) : j ∈ seen k ↔ j.val < k * 1024 := by
  simp [seen]

theorem mem_block (kb : Fin 8) (j : Fin 8192) : j ∈ block kb ↔ kb.val * 1024 ≤ j.val ∧ j.val < (kb.val + 1) * 1024 := by
  constructor
  · intro h
    obtain ⟨jj, _, rfl⟩ := Finset.mem_map.mp h
    have := jj.isLt
    simp only [Function.Embedding.coeFn_mk, col]
    constructor <;> omega
  · rintro ⟨h1, h2⟩
    refine Finset.mem_map.mpr ⟨⟨j.val - kb.val * 1024, by omega⟩, Finset.mem_univ _, ?_⟩
    apply Fin.ext
    simp only [Function.Embedding.coeFn_mk, col]
    omega

theorem seen_zero : seen 0 = ∅ := by
  ext j; simp [mem_seen]

theorem seen_eight : seen 8 = Finset.univ := by
  ext j
  have := j.isLt
  simp only [mem_seen, Finset.mem_univ, iff_true]
  omega

theorem seen_succ (k : ℕ) (h : k < 8) : seen (k + 1) = seen k ∪ block ⟨k, h⟩ := by
  ext j
  simp only [Finset.mem_union, mem_seen, mem_block, Fin.val_mk]
  omega

theorem seen_disjoint (k : ℕ) (h : k < 8) : Disjoint (seen k) (block ⟨k, h⟩) := by
  rw [Finset.disjoint_left]
  intro j hj hb
  rw [mem_seen] at hj
  rw [mem_block] at hb
  simp only [Fin.val_mk] at hb
  omega

theorem seen_nonempty (k : ℕ) (hk : 0 < k) : (seen k).Nonempty :=
  ⟨⟨0, by omega⟩, by rw [mem_seen]; show 0 < k * 1024; omega⟩

/-- A supremum over a block's own index set is the supremum over the block. -/
theorem sup_block (kb : Fin 8) (f : Fin 8192 → EReal) :
    (Finset.univ.sup fun jj => f (col kb jj)) = (block kb).sup f :=
  (Finset.sup_map Finset.univ ⟨col kb, col_injective kb⟩ f).symm

/-- A sum over a block's own index set is the sum over the block. -/
theorem sum_block (kb : Fin 8) (f : Fin 8192 → EReal) :
    (∑ jj, f (col kb jj)) = ∑ j ∈ block kb, f j :=
  (Finset.sum_map Finset.univ ⟨col kb, col_injective kb⟩ f).symm

end Cert.Contrast

end
-- ==== Proof.RowWalk.lean ====
/-
  The invariant of the kernel's walk along a row, and what the walk writes at the end.

  After `k` blocks the four kept numbers are the supremum, the relative sum of exponentials, the off-own-column
  supremum and the own-column sum, each taken over the columns of those `k` blocks. The proof is an induction on
  `k`; its one step with content re-bases a sum of exponentials from one real reference point to another.
-/
import proofs.«129074_j39118562132130_1_alg».proof.Proof.RowBlocks

noncomputable section

namespace Cert.Contrast

open Idealize.ShloMosaic

/-- Re-basing. For real entries and real reference points `m`, `m'`,
    exp (m - m') * Σ exp (x - m) = Σ exp (x - m'), term by term from exp (u) * exp (v) = exp (u + v).
    Over the empty set both sides are zero whatever `m` is, so `m` need be real only when the set is not empty. -/
theorem rebase (S : Finset (Fin 8192)) (s : Fin 8192 → EReal) (hs : ∀ j, ∃ r : ℝ, s j = (r : EReal))
    (m m' : EReal) (hm : S.Nonempty → ∃ μ : ℝ, m = (μ : EReal)) (hm' : ∃ μ' : ℝ, m' = (μ' : EReal)) :
    Ideal.exp (m - m') * ∑ j ∈ S, Ideal.exp (s j - m) = ∑ j ∈ S, Ideal.exp (s j - m') := by
  rcases S.eq_empty_or_nonempty with rfl | hne
  · simp
  · obtain ⟨μ, rfl⟩ := hm hne
    obtain ⟨μ', rfl⟩ := hm'
    choose σ hσ using hs
    have e1 : ∀ j, Ideal.exp (s j - (μ : EReal)) = ((Real.exp (σ j - μ) : ℝ) : EReal) := fun j => by
      rw [hσ j, ← EReal.coe_sub, Ideal.exp_coe]
    have e2 : ∀ j, Ideal.exp (s j - (μ' : EReal)) = ((Real.exp (σ j - μ') : ℝ) : EReal) := fun j => by
      rw [hσ j, ← EReal.coe_sub, Ideal.exp_coe]
    simp only [e1, e2]
    rw [coe_sum, coe_sum, ← EReal.coe_sub, Ideal.exp_coe, ← EReal.coe_mul, Finset.mul_sum]
    congr 1
    refine Finset.sum_congr rfl fun j _ => ?_
    rw [← Real.exp_add]
    congr 1
    ring

/-- The four kept numbers, as quantities over the columns of the first `k` blocks. -/
structure WalkInv (s : Fin 8192 → EReal) (i : Fin 8192) (k : ℕ) (A : Acc) : Prop where
  m : A.m = (seen k).sup s
  l : A.l = ∑ j ∈ seen k, Ideal.exp (s j - (seen k).sup s)
  g : A.g = (seen k).sup fun j => if j = i then ⊥ else s j
  dg : A.dg = ∑ j ∈ seen k, if j = i then s j else 0

/-- Before the first block no column has been seen: empty suprema are the bottom element, empty sums zero. -/
theorem walkInv_init (s : Fin 8192 → EReal) (i : Fin 8192) : WalkInv s i 0 Acc.init := by
  constructor <;> simp [seen_zero, Acc.init]

/-- One more block. -/
theorem walkInv_step (s : Fin 8192 → EReal) (hs : ∀ j, ∃ r : ℝ, s j = (r : EReal)) (i : Fin 8192)
    (k : ℕ) (h : k < 8) (A : Acc) (hA : WalkInv s i k A) :
    WalkInv s i (k + 1) (A.step (fun jj => s (col ⟨k, h⟩ jj)) (fun jj => col ⟨k, h⟩ jj = i)) := by
  -- the new supremum is the supremum over the union
  have hm' : (A.step (fun jj => s (col ⟨k, h⟩ jj)) (fun jj => col ⟨k, h⟩ jj = i)).m = (seen (k + 1)).sup s := by
    rw [step_m, hA.m, sup_block ⟨k, h⟩ s, seen_succ k h, Finset.sup_union]
  -- it is real, the union not being empty; the old one is real unless nothing had been seen
  obtain ⟨μ', hμ'⟩ : ∃ μ' : ℝ, (seen (k + 1)).sup s = (μ' : EReal) :=
    sup_real _ (seen_nonempty _ (Nat.succ_pos k)) s fun j _ => hs j
  have hmk : (seen k).Nonempty → ∃ μ : ℝ, (seen k).sup s = (μ : EReal) := fun hne =>
    sup_real _ hne s fun j _ => hs j
  refine ⟨hm', ?_, ?_, ?_⟩
  · -- the old sum re-based to the new supremum, plus the block's sum taken relative to it
    rw [step_l, hm', hμ', hA.l, hA.m, rebase (seen k) s hs _ _ hmk ⟨μ', rfl⟩,
      sum_block ⟨k, h⟩ (fun j => Ideal.exp (s j - (μ' : EReal))), seen_succ k h,
      Finset.sum_union (seen_disjoint k h)]
  · rw [step_g, hA.g, sup_block ⟨k, h⟩ (fun j => if j = i then ⊥ else s j), seen_succ k h, Finset.sup_union]
  · rw [step_dg, hA.dg, sum_block ⟨k, h⟩ (fun j => if j = i then s j else 0), seen_succ k h,
      Finset.sum_union (seen_disjoint k h)]

/-- The invariant holds after every number of blocks up to all eight. -/
theorem walkInv_acc (s : Fin 8192 → EReal) (hs : ∀ j, ∃ r : ℝ, s j = (r : EReal)) (i : Fin 8192) (k : ℕ)
    (hk : k ≤ 8) : WalkInv s i k (acc s i k) := by
  induction k with
  | zero => exact walkInv_init s i
  | succ k ih =>
    have h : k < 8 := hk
    have e : acc s i (k + 1) = (acc s i k).step (fun jj => s (col ⟨k, h⟩ jj)) (fun jj => col ⟨k, h⟩ jj = i) := by
      rw [acc, dif_pos h]
    rw [e]
    exact walkInv_step s hs i k h _ (ih (by omega))

/-- After all eight blocks every column has been seen, and the own-column sum has exactly one term. -/
theorem acc_out (s : Fin 8192 → EReal) (hs : ∀ j, ∃ r : ℝ, s j = (r : EReal)) (i : Fin 8192) :
    (acc s i 8).out
      = Ideal.log ((∑ j, Ideal.exp (s j - Finset.univ.sup s))
          + Ideal.exp ((Finset.univ.sup fun j => if j = i then ⊥ else s j) - Finset.univ.sup s))
        + Finset.univ.sup s - s i := by
  have H := walkInv_acc s hs i 8 le_rfl
  have hdg : (acc s i 8).dg = s i := by
    rw [H.dg, seen_eight, Finset.sum_ite_eq']
    simp
  unfold Acc.out
  rw [H.l, H.g, H.m, hdg, seen_eight]

end Cert.Contrast

end
-- ==== Proof.RowRef.lean ====
/-
  The reference's row in the same terms as the kernel's.

  Dividing by the temperature is multiplying by the scale, so the reference's first 8192 logits are the kernel's
  scaled entries. Its appended logit is the hardest negative times the scale; multiplying by a positive real
  keeps order and sends the bottom element to itself, so it commutes with a finite supremum, and the appended
  logit is the supremum of the scaled entries off the row's own column. That is at most the supremum of all the
  scaled entries, so appending it does not move the row's largest logit. The sum over the 8193 logits is the sum
  over the 8192 columns plus the appended term.
-/
import proofs.«129074_j39118562132130_1_alg».proof.Proof.RowWalk

noncomputable section

namespace Cert.Contrast

open Idealize.ShloMosaic

variable (a p : Fin 8192 → Fin 256 → EReal) (i : Fin 8192)

theorem logit_castSucc (j : Fin 8192) : logit a p i j.castSucc = cosine a p i j * scale := by
  unfold logit
  rw [div_temperature, dif_pos (show (j.castSucc).val < 8192 from j.isLt)]
  rfl

theorem logit_last : logit a p i (Fin.last 8192) = hardNeg a p i * scale := by
  unfold logit
  rw [div_temperature, dif_neg (show ¬ (Fin.last 8192).val < 8192 by simp)]

theorem scale_nonneg : (0 : EReal) ≤ scale := by
  rw [scale_eq]
  exact EReal.coe_nonneg.mpr scaleR_pos.le

theorem bot_mul_scale : (⊥ : EReal) * scale = ⊥ := by
  rw [scale_eq]
  exact EReal.bot_mul_coe_of_pos scaleR_pos

/-- The hardest negative, scaled, is the supremum of the scaled entries off the row's own column. -/
theorem hardNeg_scale :
    hardNeg a p i * scale = Finset.univ.sup fun j => if j = i then ⊥ else cosine a p i j * scale := by
  unfold hardNeg
  rw [fold_max_eq_sup]
  have mono : Monotone fun x : EReal => x * scale := fun x y hxy =>
    mul_le_mul_of_nonneg_right hxy scale_nonneg
  have h := Finset.apply_sup_eq_sup_comp_of_linearOrder (s := (Finset.univ : Finset (Fin 8192)))
    (f := fun j => if i = j then ⊥ else cosine a p i j) (fun x : EReal => x * scale) mono bot_mul_scale
  refine h.trans (Finset.sup_congr rfl fun j _ => ?_)
  simp only [Function.comp]
  by_cases hij : j = i
  · rw [if_pos hij, if_pos hij.symm, bot_mul_scale]
  · rw [if_neg hij, if_neg fun h' => hij h'.symm]

/-- Appending the hardest negative does not move the row's largest logit. -/
theorem topLogit_eq : topLogit a p i = Finset.univ.sup fun j => cosine a p i j * scale := by
  unfold topLogit
  rw [fold_max_eq_sup, max_bot_left]
  apply le_antisymm
  · refine Finset.sup_le fun j _ => ?_
    induction j using Fin.lastCases with
    | last =>
      rw [logit_last, hardNeg_scale]
      refine Finset.sup_mono_fun fun j _ => ?_
      by_cases hij : j = i
      · rw [if_pos hij]; exact bot_le
      · rw [if_neg hij]
    | cast j =>
      rw [logit_castSucc]
      exact Finset.le_sup (f := fun j => cosine a p i j * scale) (Finset.mem_univ j)
  · refine Finset.sup_le fun j _ => ?_
    rw [← logit_castSucc]
    exact Finset.le_sup (f := logit a p i) (Finset.mem_univ _)

/-- The row's log-probability, written with the kernel's scaled entries. -/
theorem logProb_eq :
    logProb a p i
      = (cosine a p i i * scale - Finset.univ.sup fun j => cosine a p i j * scale)
        - Ideal.log ((∑ j, Ideal.exp (cosine a p i j * scale - Finset.univ.sup fun j => cosine a p i j * scale))
            + Ideal.exp ((Finset.univ.sup fun j => if j = i then ⊥ else cosine a p i j * scale)
                - Finset.univ.sup fun j => cosine a p i j * scale)) := by
  unfold logProb
  rw [Fin.sum_univ_castSucc, topLogit_eq, logit_last, hardNeg_scale]
  simp only [logit_castSucc]

end Cert.Contrast

end
-- ==== Proof.LossEq.lean ====
/-
  The two losses agree on finite inputs.

  Fix a row. Its scaled entries are reals; so is their supremum M, and so is the supremum G of the entries off the
  row's own column, because the row has more than one column. The number under the logarithm is then a real,
  Λ = Σ exp (entry − M) + exp (G − M), and it is positive since every exponential is. The kernel writes
  log Λ + M − (own entry) for the row and the reference's log-probability is (own entry − M) − log Λ: one is minus
  the other. Summing over the rows and dividing by their number, the kernel's mean of the first is minus the
  reference's mean of the second.
-/
import proofs.«129074_j39118562132130_1_alg».proof.Proof.RowRef

noncomputable section

namespace Cert.Contrast

open Idealize.ShloMosaic

/-- The supremum of real entries off one column of a row with at least two columns is real: it is attained, and
    not on the excluded column, since any other column's real entry lies below it. -/
theorem sup_off_real (s : Fin 8192 → EReal) (hs : ∀ j, ∃ r : ℝ, s j = (r : EReal)) (i : Fin 8192) :
    ∃ γ : ℝ, (Finset.univ.sup fun j => if j = i then ⊥ else s j) = (γ : EReal) := by
  obtain ⟨j0, _, h0⟩ := Finset.exists_mem_eq_sup Finset.univ Finset.univ_nonempty
    (fun j => if j = i then ⊥ else s j)
  have h0' : (Finset.univ.sup fun j => if j = i then ⊥ else s j) = if j0 = i then ⊥ else s j0 := h0
  by_cases hj : j0 = i
  · exfalso
    rw [if_pos hj] at h0'
    obtain ⟨j1, hj1⟩ := exists_ne i
    obtain ⟨r, hr⟩ := hs j1
    have hle : (if j1 = i then ⊥ else s j1) ≤ Finset.univ.sup fun j => if j = i then ⊥ else s j :=
      Finset.le_sup (f := fun j => if j = i then ⊥ else s j) (Finset.mem_univ j1)
    rw [if_neg hj1, h0', hr] at hle
    exact EReal.coe_ne_bot r (le_bot_iff.mp hle)
  · rw [if_neg hj] at h0'
    obtain ⟨r, hr⟩ := hs j0
    exact ⟨r, h0'.trans hr⟩

/-- One row: the kernel's value is a real, and the reference's log-probability is minus it. -/
theorem row_real (a p : Fin 8192 → Fin 256 → EReal)
    (ha : ∀ i k, a i k ≠ ⊥ ∧ a i k ≠ ⊤) (hp : ∀ i k, p i k ≠ ⊥ ∧ p i k ≠ ⊤) (i : Fin 8192) :
    ∃ y : ℝ, kernelRow a p i = (y : EReal) ∧ logProb a p i = ((-y : ℝ) : EReal) := by
  choose c hc using cosine_real a p ha hp i
  -- the scaled entries are reals
  have hσ : ∀ j, cosine a p i j * scale = ((c j * scaleR : ℝ) : EReal) := fun j => by
    rw [hc j, scale_eq, EReal.coe_mul]
  have hs : ∀ j, ∃ r : ℝ, (fun j => cosine a p i j * scale) j = (r : EReal) := fun j => ⟨_, hσ j⟩
  -- so are the two suprema
  obtain ⟨μ, hμ⟩ := sup_real Finset.univ Finset.univ_nonempty (fun j => cosine a p i j * scale) fun j _ => hs j
  obtain ⟨γ, hγ⟩ := sup_off_real (fun j => cosine a p i j * scale) hs i
  -- and the sum of exponentials
  have hl : (∑ j, Ideal.exp (cosine a p i j * scale - (μ : EReal)))
      = ((∑ j, Real.exp (c j * scaleR - μ) : ℝ) : EReal) := by
    rw [← coe_sum]
    refine Finset.sum_congr rfl fun j _ => ?_
    rw [hσ j, ← EReal.coe_sub, Ideal.exp_coe]
  have hpos : 0 < (∑ j, Real.exp (c j * scaleR - μ)) + Real.exp (γ - μ) :=
    add_pos_of_nonneg_of_pos (Finset.sum_nonneg fun j _ => (Real.exp_pos _).le) (Real.exp_pos _)
  refine ⟨Real.log ((∑ j, Real.exp (c j * scaleR - μ)) + Real.exp (γ - μ)) + μ - c i * scaleR, ?_, ?_⟩
  · unfold kernelRow
    rw [acc_out _ hs i, hγ, hμ, hl, ← EReal.coe_sub γ μ, Ideal.exp_coe, ← EReal.coe_add, Ideal.log_coe,
      if_neg (not_le.mpr hpos), hσ i, ← EReal.coe_add, ← EReal.coe_sub]
  · rw [logProb_eq, hγ, hμ, hl, ← EReal.coe_sub γ μ, Ideal.exp_coe, ← EReal.coe_add, Ideal.log_coe,
      if_neg (not_le.mpr hpos), hσ i, ← EReal.coe_sub, ← EReal.coe_sub]
    congr 1
    ring

/-- The kernel's mean of the rows' values is minus the reference's mean of the rows' log-probabilities. -/
theorem loss_eq (a p : Fin 8192 → Fin 256 → EReal)
    (ha : ∀ i k, a i k ≠ ⊥ ∧ a i k ≠ ⊤) (hp : ∀ i k, p i k ≠ ⊥ ∧ p i k ≠ ⊤) :
    kernelLoss a p = referenceLoss a p := by
  choose y hk hr using row_real a p ha hp
  unfold kernelLoss referenceLoss
  simp only [hk, hr]
  rw [div_rowCount, div_rowCount, coe_sum, coe_sum, ← EReal.coe_mul, ← EReal.coe_mul, ← EReal.coe_neg]
  congr 1
  rw [Finset.sum_neg_distrib]
  ring

end Cert.Contrast

end
-- ==== Proof.FiniteInputs.lean ====
/-
  Finite inputs, read back from the precondition.

  The precondition says that a small program — for each of the two argument arrays, "every entry's absolute value
  is below plus infinity", the two joined by "and" — evaluates to the one-bit word 1. A conjunction of two bits
  is 1 only if both are; a reduction by "and" over a whole array is 1 only if every reduced bit is; and the bit
  at an entry x is the truth value of max x (−x) < ⊤. The three cases of an extended real finish it: for x = ⊤ the
  left side is ⊤, for x = ⊥ it is −⊥ = ⊤ again, and ⊤ < ⊤ is false; so x is a real, neither ⊥ nor ⊤.
-/
import proofs.«129074_j39118562132130_1_alg».proof.Defs
import proofs.«129074_j39118562132130_1_alg».proof.Proof.Gen.Pre_finite_inputs
import Idealize.ShloMosaic.Lib.ReduceAll
import Idealize.ShloMosaic.Lib.IdealHost

noncomputable section

namespace Cert.Proof.Finite

open Idealize.ShloMosaic Idealize.SL.Sem

/-- The word with exponent field all ones and fraction field zero, sign clear, is plus infinity. -/
theorem ofBits_inf_f32 : Ideal.ofBits .f32 0x7F800000#32 = ⊤ := by
  simp [Ideal.ofBits, Ideal.ieee]

/-- An extended real whose absolute value is strictly below plus infinity is a real. -/
theorem finite_of_abs_lt (x : EReal)
    (h : Ideal.cmp .olt (max x (-x)) (Ideal.ofBits .f32 0x7F800000#32) = 1#1) : x ≠ ⊥ ∧ x ≠ ⊤ := by
  rw [ofBits_inf_f32] at h
  induction x using EReal.rec with
  | bot => simp [Ideal.cmp] at h
  | coe r => exact ⟨EReal.coe_ne_bot r, EReal.coe_ne_top r⟩
  | top => simp [Ideal.cmp] at h

/-- A shape of rank zero has one index. -/
instance : Subsingleton Cert.Pre_finite_inputs.S_.Idx := ⟨fun a b => funext fun d => d.elim0⟩

/-- One array: if the reduction by "and" of its entries' tests is 1, every entry is a real. -/
theorem finite_of_all (A : FVec Ideal Cert.Pre_finite_inputs.S8192x256 .f32)
    (hb : Cert.Pre_finite_inputs.S_.BroadcastsInDim Cert.Pre_finite_inputs.S8192x256
      (![] : Fin 0 → Fin Cert.Pre_finite_inputs.S8192x256.rank))
    (hr : Cert.Pre_finite_inputs.S8192x256.ReducesTo [0, 1] Cert.Pre_finite_inputs.S_)
    (hn : 0 < Cert.Pre_finite_inputs.S_.numel)
    (h : Host.reduce IntOp.andi
        (cmpf CmpFPredicate.olt (Host.absf A)
          (broadcastInDim Cert.Pre_finite_inputs.S8192x256 ![] hb
            (constant (F := Ideal) Cert.Pre_finite_inputs.S_ FTy.f32 0x7F800000#32)))
        (constantI Cert.Pre_finite_inputs.S_ 1 1#1) hr hn ValueIdx.ix0 = 1#1)
    (j : Cert.Pre_finite_inputs.S8192x256.Idx) : A j ≠ ⊥ ∧ A j ≠ ⊤ := by
  have e := Host.reduce_andi_all _ _ hr hn ValueIdx.ix0 h j
  exact finite_of_abs_lt (A j) e

theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j : Cert.Pre_finite_inputs.S8192x256.Idx, @Ne EReal (m ((c.tc : Thread Cert.KernelIdeal.nD Cert.KernelIdeal.τ).loc Cert.KernelIdeal.main_arg0) j) ⊥ ∧ @Ne EReal (m ((c.tc : Thread Cert.KernelIdeal.nD Cert.KernelIdeal.τ).loc Cert.KernelIdeal.main_arg0) j) ⊤)
    ∧ (∀ j : Cert.Pre_finite_inputs.S8192x256.Idx, @Ne EReal (m ((c.tc : Thread Cert.KernelIdeal.nD Cert.KernelIdeal.τ).loc Cert.KernelIdeal.main_arg1) j) ⊥ ∧ @Ne EReal (m ((c.tc : Thread Cert.KernelIdeal.nD Cert.KernelIdeal.τ).loc Cert.KernelIdeal.main_arg1) j) ⊤) := by
  have h := congrFun (hpre c) ValueIdx.ix0
  dsimp only [Cert.Pre_finite_inputs.fn] at h
  obtain ⟨h0, h1⟩ := IntOp.andi_eq_one.1 h
  exact ⟨fun j => finite_of_all _ _ _ _ h0 j, fun j => finite_of_all _ _ _ _ h1 j⟩

end Cert.Proof.Finite

end
-- ==== Proof.RefLib.lean ====
/-
  Small readings used when the reference program is read back stage by stage: two float words as extended reals,
  a select on a decided bit, the comparison of two small counters as 32-bit words, a maximum taken along the rows of
  a two-axis array, and a sum over a one-column array as a sum over its rows.
-/
import Idealize.ShloMosaic.Lib.Pipeline.Value
import Idealize.ShloMosaic.Lib.ValueIdx
import Idealize.ShloMosaic.Lib.ReduceAll
import Idealize.ShloMosaic.PureOps.Ideal.Laws

namespace Cert.ReferenceIdeal.RefValue

open Idealize.ShloMosaic Idealize.ShloMosaic.ValueIdx

/-- The word `0xFF800000` is minus infinity, the bottom of the extended reals. -/
theorem ofBits_negInf_f32 : Ideal.ofBits .f32 0xFF800000#32 = ⊥ := by simp [Ideal.ofBits, Ideal.ieee]

/-- A select whose bit is `1` exactly when `P` holds is the `if` on `P`. -/
theorem select_of_iff {α : Type} (c : BitVec 1) (P : Prop) [Decidable P] (h : c = 1#1 ↔ P) (a b : α) :
    Scalar.select c a b = if P then a else b := by
  unfold Scalar.select
  by_cases hp : P
  · rw [if_pos hp]; exact if_pos (h.2 hp)
  · rw [if_neg hp]; exact if_neg (fun hc => hp (h.1 hc))

/-- Two counters below `2 ^ 32` are equal as 32-bit words exactly when they are equal. -/
theorem ofNat32_inj {i j : Nat} (hi : i < 4294967296) (hj : j < 4294967296) :
    BitVec.ofNat 32 i = BitVec.ofNat 32 j ↔ i = j := by
  constructor
  · intro h
    have := congrArg BitVec.toNat h
    rw [BitVec.toNat_ofNat, BitVec.toNat_ofNat] at this
    omega
  · rintro rfl; rfl

/-- The row counter plus the zero word compared for equality with the column counter: the bit is `1` exactly on the
    diagonal. -/
theorem iota_eq_bit (i j : Nat) (hi : i < 8192) (hj : j < 8192) :
    IntOp.cmpi .eq (IntOp.addi (BitVec.ofNat 32 i) 0#32) (BitVec.ofNat 32 j) = 1#1 ↔ i = j := by
  rw [IntOp.cmpi_eq]
  unfold IntOp.addi
  rw [BitVec.add_zero]
  exact ofNat32_inj (by omega) (by omega)

/-- The index a reduction along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A reduction by maximum along the rows of an `[a, b]` array of extended reals, read at row `p`: the maximum,
    from the initial value, of the row's entries. -/
theorem rowMax_apply {a b : ℕ} {u : Shape} (x : (⟨2, ![a, b]⟩ : Shape).Idx → EReal) (init : u.Idx → EReal)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  rw [Host.reduce_eq_fold_single _ x init h' h hu (ix1 p)]
  show (Finset.univ : Finset (Fin b)).fold max _ _ = _
  refine Finset.fold_congr fun k _ => ?_
  exact congrArg x (lift_row h p k)

/-- A column appended to an `[a, b]` array, read left of the seam: the array's entry. -/
theorem concat_col_left {α : Type} {a b c : ℕ} (x₁ : (⟨2, ![a, b]⟩ : Shape).Idx → α) (x₂ : (⟨2, ![a, 1]⟩ : Shape).Idx → α)
    (h : Shape.Concatenates [(⟨2, ![a, b]⟩ : Shape), (⟨2, ![a, 1]⟩ : Shape)] (⟨2, ![a, c]⟩ : Shape) 1)
    (i : Fin a) (j : Fin c) (hj : j.val < b) :
    concatenate (⟨2, ![a, c]⟩ : Shape) 1 [⟨(⟨2, ![a, b]⟩ : Shape), x₁⟩, ⟨(⟨2, ![a, 1]⟩ : Shape), x₂⟩] h (ix2 i j)
      = x₁ (ix2 i (⟨j.val, hj⟩ : Fin b)) :=
  concatenate_pair_apply_left 1 x₁ x₂ h (ix2 i j) rfl (ix2 i (⟨j.val, hj⟩ : Fin b)) (fun d => by fin_cases d <;> rfl)

/-- … and at the seam: the column's entry. -/
theorem concat_col_right {α : Type} {a b c : ℕ} (x₁ : (⟨2, ![a, b]⟩ : Shape).Idx → α) (x₂ : (⟨2, ![a, 1]⟩ : Shape).Idx → α)
    (h : Shape.Concatenates [(⟨2, ![a, b]⟩ : Shape), (⟨2, ![a, 1]⟩ : Shape)] (⟨2, ![a, c]⟩ : Shape) 1)
    (i : Fin a) (j : Fin c) (hj : j.val = b) :
    concatenate (⟨2, ![a, c]⟩ : Shape) 1 [⟨(⟨2, ![a, b]⟩ : Shape), x₁⟩, ⟨(⟨2, ![a, 1]⟩ : Shape), x₂⟩] h (ix2 i j)
      = x₂ (ix2 i (0 : Fin 1)) :=
  concatenate_pair_apply_right 1 x₁ x₂ h (ix2 i j) rfl rfl (ix2 i (0 : Fin 1))
    (fun d hd => by fin_cases d
                    · rfl
                    · exact absurd rfl hd)
    (by show 0 + b = j.val; omega)

/-- A counter below `8192`, as a 32-bit word read signed, is itself. -/
theorem toInt_ofNat32 (i : Nat) (hi : i < 8192) : (BitVec.ofNat 32 i).toInt = (i : Int) := by
  rw [BitVec.toInt_eq_toNat_cond, BitVec.toNat_ofNat, Nat.mod_eq_of_lt (by omega), if_pos (by omega)]

/-- A fold by `and` from `1` over bits that are all `1` is `1`. -/
theorem fold_andi_one {ι : Type} (s : Finset ι) (f : ι → BitVec 1) (h : ∀ k, f k = 1#1) :
    s.fold IntOp.andi 1#1 f = 1#1 := by
  classical
  induction s using Finset.induction_on with
  | empty => rfl
  | insert a s ha ih => rw [Finset.fold_insert ha, ih, h a]; rfl

/-- A reduction by `and`, from `1`, along one axis of an array of bits that are all `1` is `1` everywhere. -/
theorem reduce_andi_of_all {s t u : Shape} {a : Fin s.rank} (x : s.Idx → BitVec 1) (init : u.Idx → BitVec 1)
    (h' : s.ReducesTo [a] t) (h : s.Reduces [a] t) (hu : 0 < u.numel) (hinit : ∀ k, init k = 1#1)
    (hx : ∀ k, x k = 1#1) (j : t.Idx) : Host.reduce IntOp.andi x init h' hu j = 1#1 := by
  rw [Host.reduce_eq_fold_single IntOp.andi x init h' h hu j, hinit]
  exact fold_andi_one _ _ fun k => hx _

/-- A sum over the indices of a one-column array is the sum over its rows. -/
theorem sum_col {M : Type*} [AddCommMonoid M] {a : ℕ} (f : (⟨2, ![a, 1]⟩ : Shape).Idx → M) :
    ∑ j, f j = ∑ i : Fin a, f (ix2 i (0 : Fin 1)) := by
  rw [sum_idx2]
  exact Finset.sum_congr rfl fun i _ => Fin.sum_univ_one _

end Cert.ReferenceIdeal.RefValue
-- ==== Proof.RefCosine.lean ====
/-
  The reference read back, first part: each argument array's rows divided by their Euclidean norms (the norm kept
  above a small positive constant), and the matrix of cosines between the rows of the first and the rows of the
  second — the sum over the features of the products of the normalized entries.
-/
import proofs.«129074_j39118562132130_1_alg».proof.Proof.RefReadLite
import proofs.«129074_j39118562132130_1_alg».proof.Proof.Spec
import proofs.«129074_j39118562132130_1_alg».proof.Proof.RefLib

noncomputable section

namespace Cert.ReferenceIdeal.RefValue

open Cert.ReferenceIdeal Cert.ReferenceIdeal.Gen Cert.ReferenceIdeal.Read Idealize.ShloMosaic Idealize.ShloMosaic.ValueIdx Cert.Contrast

/-- The two argument arrays' type. -/
abbrev Arr : Type := (⟨S8192x256, .f32⟩ : BufTy).Contents (Elt Ideal)

/-- An argument array by rows and features. -/
def rows (x : Arr) : Fin 8192 → Fin 256 → EReal := fun i k => x (ix2 i k)

/-- The first array's rows divided by their norms. -/
theorem v7_at (x0 : Arr) (i : Fin 8192) (k : Fin 256) :
    val_main_v7 (F := Ideal) x0 (ix2 i k) = unit (rows x0) i k := by
  rw [val_main_v7_apply, val_main_v6_apply, val_main_v5_apply, val_main_v3_apply, val_main_v2_apply, val_main_v1_apply,
    val_main_v4_apply, val_main_cst_apply, val_main_cst_0_apply]
  simp only [val_main_v0_apply]
  have hidx : ∀ k', idx_main_v1 (idx_main_v2 (idx_main_v6 (ix2 i k))) k' = ix2 i k' := fun k' =>
    funext fun a => Fin.ext (by match a with | ⟨0, _⟩ => rfl | ⟨1, _⟩ => rfl)
  simp only [hidx]
  show Ideal.div (x0 (ix2 i k)) (max (Ideal.sqrt (Ideal.ofBits .f32 0x00000000#32 + ∑ k', x0 (ix2 i k') * x0 (ix2 i k')))
    (Ideal.ofBits .f32 0x2B8CBCCC#32)) = _
  rw [Ideal.ofBits_zero_f32, zero_add]
  rfl

/-- The second array's rows divided by their norms. -/
theorem v15_at (x1 : Arr) (i : Fin 8192) (k : Fin 256) :
    val_main_v15 (F := Ideal) x1 (ix2 i k) = unit (rows x1) i k := by
  rw [val_main_v15_apply, val_main_v14_apply, val_main_v13_apply, val_main_v11_apply, val_main_v10_apply, val_main_v9_apply,
    val_main_v12_apply, val_main_cst_1_apply, val_main_cst_2_apply]
  simp only [val_main_v8_apply]
  have hidx : ∀ k', idx_main_v9 (idx_main_v10 (idx_main_v14 (ix2 i k))) k' = ix2 i k' := fun k' =>
    funext fun a => Fin.ext (by match a with | ⟨0, _⟩ => rfl | ⟨1, _⟩ => rfl)
  simp only [hidx]
  show Ideal.div (x1 (ix2 i k)) (max (Ideal.sqrt (Ideal.ofBits .f32 0x00000000#32 + ∑ k', x1 (ix2 i k') * x1 (ix2 i k')))
    (Ideal.ofBits .f32 0x2B8CBCCC#32)) = _
  rw [Ideal.ofBits_zero_f32, zero_add]
  rfl

/-- The matrix of cosines. -/
theorem v16_at (x0 x1 : Arr) (i j : Fin 8192) :
    val_main_v16 (F := Ideal) x0 x1 (ix2 i j) = cosine (rows x0) (rows x1) i j := by
  rw [val_main_v16_apply]
  unfold cosine
  refine Finset.sum_congr rfl fun k _ => ?_
  have hl : lidx_main_v16 (ix2 i j) k = ix2 i k :=
    funext fun a => Fin.ext (by match a with | ⟨0, _⟩ => rfl | ⟨1, _⟩ => rfl)
  have hr : ridx_main_v16 (ix2 i j) k = ix2 j k :=
    funext fun a => Fin.ext (by match a with | ⟨0, _⟩ => rfl | ⟨1, _⟩ => rfl)
  rw [hl, hr, v7_at, v15_at]

end Cert.ReferenceIdeal.RefValue

end
-- ==== Proof.RefGather.lean ====
/-
  The gather that takes one entry from each row of an `[8192, 8193]` array, read at an index: row `i` of the result
  is the operand at row `i` and at the column the index array holds for that row, read as a signed integer and clamped
  into the row.
-/
import proofs.«129074_j39118562132130_1_alg».proof.Proof.Gen.ReferenceIdeal
import proofs.«129074_j39118562132130_1_alg».proof.Proof.RefLib

namespace Cert.ReferenceIdeal.RefValue

open Cert.ReferenceIdeal Idealize.ShloMosaic Idealize.ShloMosaic.ValueIdx

/-- The gather that takes one entry per row: result `(i, 0)` is the operand at row `i` and at the column the index
    array names there, read signed and clamped into the row. -/
theorem gather_row_apply {α : Type} (x : S8192x8193.Idx → α) (idx : IVec S8192x1x1 32) (i : Fin 8192) :
    Host.gather gather_S8192x8193_S8192x1x1_S8192x1_n_1_0_0_1_2_11 x idx (ix2 i (0 : Fin 1))
      = x (ix2 i (⟨min (idx (ix3 i (0 : Fin 1) (0 : Fin 1))).toInt.toNat 8192, by omega⟩ : Fin 8193)) := by
  unfold Host.gather
  congr 1
  funext a
  refine Fin.ext ?_
  match a with
  | ⟨0, _⟩ =>
    show gather_S8192x8193_S8192x1x1_S8192x1_n_1_0_0_1_2_11.start (ix2 i (0 : Fin 1)) idx 0
      + gather_S8192x8193_S8192x1x1_S8192x1_n_1_0_0_1_2_11.batchCoord (ix2 i (0 : Fin 1)) 0
      + gather_S8192x8193_S8192x1x1_S8192x1_n_1_0_0_1_2_11.offCoord (ix2 i (0 : Fin 1)) 0 = i.val
    rw [GatherDims.start_batching _ _ _ _ (show (0 : Fin 2) ∈ [(0 : Fin 2)] from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x8193_S8192x1x1_S8192x1_n_1_0_0_1_2_11.operandBatchingDims from List.mem_singleton.mpr rfl)]
    rfl
  | ⟨1, _⟩ =>
    show gather_S8192x8193_S8192x1x1_S8192x1_n_1_0_0_1_2_11.start (ix2 i (0 : Fin 1)) idx 1
      + gather_S8192x8193_S8192x1x1_S8192x1_n_1_0_0_1_2_11.batchCoord (ix2 i (0 : Fin 1)) 1
      + gather_S8192x8193_S8192x1x1_S8192x1_n_1_0_0_1_2_11.offCoord (ix2 i (0 : Fin 1)) 1 = min (idx (ix3 i (0 : Fin 1) (0 : Fin 1))).toInt.toNat 8192
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8193_S8192x1x1_S8192x1_n_1_0_0_1_2_11.startIndexMap from List.mem_singleton.mpr rfl)]
    have hsi : gather_S8192x8193_S8192x1x1_S8192x1_n_1_0_0_1_2_11.siIdx (ix2 i (0 : Fin 1))
        ⟨List.idxOf (1 : Fin 2) gather_S8192x8193_S8192x1x1_S8192x1_n_1_0_0_1_2_11.startIndexMap, List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

end Cert.ReferenceIdeal.RefValue
-- ==== Proof.RefLogits.lean ====
/-
  The reference read back, second part: the mask of the diagonal, each row's hardest negative (the largest cosine off
  the row's own column), the 8193 logits of a row — its cosines, then its hardest negative, all divided by the
  temperature.
-/
import proofs.«129074_j39118562132130_1_alg».proof.Proof.RefReadLite
import proofs.«129074_j39118562132130_1_alg».proof.Proof.Spec
import proofs.«129074_j39118562132130_1_alg».proof.Proof.RefLib
import proofs.«129074_j39118562132130_1_alg».proof.Proof.RefCosine

noncomputable section

namespace Cert.ReferenceIdeal.RefValue

open Cert.ReferenceIdeal Cert.ReferenceIdeal.Gen Cert.ReferenceIdeal.Read Idealize.ShloMosaic Idealize.ShloMosaic.ValueIdx Cert.Contrast

/-- The mask of the diagonal: the bit at `(i, j)` is `1` exactly when `i = j`. -/
theorem v21_bit (i j : Fin 8192) : val_main_v21 (F := Ideal) (ix2 i j) = 1#1 ↔ i = j := by
  rw [val_main_v21_apply, val_main_v20_apply, val_main_v17_apply, val_main_v18_apply, val_main_v19_apply, val_main_c_apply]
  exact (iota_eq_bit i.val j.val i.isLt j.isLt).trans Fin.val_inj

/-- The cosines with the diagonal put to minus infinity. -/
theorem v22_at (x0 x1 : Arr) (i j : Fin 8192) :
    val_main_v22 (F := Ideal) x0 x1 (ix2 i j) = if i = j then ⊥ else cosine (rows x0) (rows x1) i j := by
  rw [val_main_v22_apply, select_of_iff _ (i = j) (v21_bit i j), val_main_call0_v1_apply, val_main_call0_v0_apply,
    val_main_cst_3_apply, v16_at]
  show (if i = j then Ideal.ofBits .f32 0xFF800000#32 else _) = _
  rw [ofBits_negInf_f32]

/-- Each row's hardest negative: the largest entry of the masked row. -/
theorem v23_at (x0 x1 : Arr) (i : Fin 8192) :
    val_main_v23 (F := Ideal) x0 x1 (ix1 i) = hardNeg (rows x0) (rows x1) i := by
  unfold val_main_v23
  rw [rowMax_apply _ _ _ (by decide) _ i, val_main_cst_4_apply]
  show (Finset.univ : Finset (Fin 8192)).fold max (Ideal.ofBits .f32 0xFF800000#32) _ = _
  rw [ofBits_negInf_f32]
  unfold hardNeg
  exact Finset.fold_congr fun j _ => v22_at x0 x1 i j

/-- … as a column. -/
theorem v24_at (x0 x1 : Arr) (i : Fin 8192) :
    val_main_v24 (F := Ideal) x0 x1 (ix2 i (0 : Fin 1)) = hardNeg (rows x0) (rows x1) i := by
  rw [val_main_v24_apply]
  have hidx : idx_main_v24 (ix2 i (0 : Fin 1)) = ix1 i := funext fun a => Fin.ext (by match a with | ⟨0, _⟩ => rfl)
  rw [hidx, v23_at]

/-- The cosines with the hardest negative appended as column `8192`. -/
theorem v25_at (x0 x1 : Arr) (i : Fin 8192) (j : Fin 8193) :
    val_main_v25 (F := Ideal) x0 x1 (ix2 i j)
      = if h : j.val < 8192 then cosine (rows x0) (rows x1) i ⟨j.val, h⟩ else hardNeg (rows x0) (rows x1) i := by
  unfold val_main_v25
  by_cases h : j.val < 8192
  · rw [dif_pos h, concat_col_left _ _ _ i j h, v16_at]
  · rw [dif_neg h, concat_col_right _ _ _ i j (by have := j.isLt; omega), v24_at]

/-- The logits: that array divided by the temperature. -/
theorem v27_at (x0 x1 : Arr) (i : Fin 8192) (j : Fin 8193) :
    val_main_v27 (F := Ideal) x0 x1 (ix2 i j) = logit (rows x0) (rows x1) i j := by
  rw [val_main_v27_apply, v25_at, val_main_v26_apply, val_main_cst_5_apply]
  rfl

end Cert.ReferenceIdeal.RefValue

end
-- ==== Proof.RefSoftmax.lean ====
/-
  The reference read back, third part: the log-softmax of each row of logits — the row's largest logit, the logits
  relative to it, the sum of their exponentials, and the log-probabilities.
-/
import proofs.«129074_j39118562132130_1_alg».proof.Proof.RefReadLite
import proofs.«129074_j39118562132130_1_alg».proof.Proof.Spec
import proofs.«129074_j39118562132130_1_alg».proof.Proof.RefLib
import proofs.«129074_j39118562132130_1_alg».proof.Proof.RefCosine
import proofs.«129074_j39118562132130_1_alg».proof.Proof.RefLogits

noncomputable section

namespace Cert.ReferenceIdeal.RefValue

open Cert.ReferenceIdeal Cert.ReferenceIdeal.Gen Cert.ReferenceIdeal.Read Idealize.ShloMosaic Idealize.ShloMosaic.ValueIdx Cert.Contrast

/-- The largest logit of a row, taken from minus infinity. -/
theorem call1_v0_at (x0 x1 : Arr) (i : Fin 8192) :
    val_main_call1_v0 (F := Ideal) x0 x1 (ix1 i) = Finset.univ.fold max ⊥ (logit (rows x0) (rows x1) i) := by
  unfold val_main_call1_v0
  rw [rowMax_apply _ _ _ (by decide) _ i, val_main_call1_cst_apply]
  show (Finset.univ : Finset (Fin 8193)).fold max (Ideal.ofBits .f32 0xFF800000#32) _ = _
  rw [ofBits_negInf_f32]
  exact Finset.fold_congr fun j _ => v27_at x0 x1 i j

/-- … and once more against minus infinity, as the softmax takes it. -/
theorem call1_v2_at (x0 x1 : Arr) (i : Fin 8192) :
    val_main_call1_v2 (F := Ideal) x0 x1 (ix1 i) = topLogit (rows x0) (rows x1) i := by
  rw [val_main_call1_v2_apply, val_main_call1_v1_apply, val_main_call1_cst_0_apply, call1_v0_at]
  show max (Ideal.ofBits .f32 0xFF800000#32) _ = _
  rw [ofBits_negInf_f32]
  rfl

/-- The row's largest logit, spread along the row. -/
theorem call1_v4_at (x0 x1 : Arr) (i : Fin 8192) (j : Fin 8193) :
    val_main_call1_v4 (F := Ideal) x0 x1 (ix2 i j) = topLogit (rows x0) (rows x1) i := by
  rw [val_main_call1_v4_apply, val_main_call1_v3_apply]
  have hidx : idx_main_call1_v3 (idx_main_call1_v4 (ix2 i j)) = ix1 i :=
    funext fun a => Fin.ext (by match a with | ⟨0, _⟩ => rfl)
  rw [hidx, call1_v2_at]

/-- The logits relative to the row's largest. -/
theorem call1_v5_at (x0 x1 : Arr) (i : Fin 8192) (j : Fin 8193) :
    val_main_call1_v5 (F := Ideal) x0 x1 (ix2 i j)
      = logit (rows x0) (rows x1) i j - topLogit (rows x0) (rows x1) i := by
  rw [val_main_call1_v5_apply, v27_at, call1_v4_at]
  rfl

/-- The row's sum of exponentials. -/
theorem call1_v7_at (x0 x1 : Arr) (i : Fin 8192) :
    val_main_call1_v7 (F := Ideal) x0 x1 (ix1 i)
      = ∑ j, Ideal.exp (logit (rows x0) (rows x1) i j - topLogit (rows x0) (rows x1) i) := by
  rw [val_main_call1_v7_apply, val_main_call1_cst_1_apply]
  show Ideal.ofBits .f32 0x00000000#32 + _ = _
  rw [Ideal.ofBits_zero_f32, zero_add]
  refine Finset.sum_congr rfl fun j _ => ?_
  have hidx : idx_main_call1_v7 (ix1 i) j = ix2 i j :=
    funext fun a => Fin.ext (by match a with | ⟨0, _⟩ => rfl | ⟨1, _⟩ => rfl)
  rw [hidx, val_main_call1_v6_apply, call1_v5_at]
  rfl

/-- Its logarithm, spread along the row. -/
theorem call1_v10_at (x0 x1 : Arr) (i : Fin 8192) (j : Fin 8193) :
    val_main_call1_v10 (F := Ideal) x0 x1 (ix2 i j)
      = Ideal.log (∑ j', Ideal.exp (logit (rows x0) (rows x1) i j' - topLogit (rows x0) (rows x1) i)) := by
  rw [val_main_call1_v10_apply, val_main_call1_v9_apply, val_main_call1_v8_apply]
  have hidx : idx_main_call1_v8 (idx_main_call1_v10 (ix2 i j)) = ix1 i :=
    funext fun a => Fin.ext (by match a with | ⟨0, _⟩ => rfl)
  rw [hidx, call1_v7_at]
  rfl

/-- The log-probabilities of the row's softmax. -/
theorem v29_at (x0 x1 : Arr) (i : Fin 8192) (j : Fin 8193) :
    val_main_v29 (F := Ideal) x0 x1 (ix2 i j)
      = (logit (rows x0) (rows x1) i j - topLogit (rows x0) (rows x1) i)
        - Ideal.log (∑ j', Ideal.exp (logit (rows x0) (rows x1) i j' - topLogit (rows x0) (rows x1) i)) := by
  rw [val_main_v29_apply, call1_v5_at, call1_v10_at]
  rfl

end Cert.ReferenceIdeal.RefValue

end
-- ==== Proof.RefTake.lean ====
/-
  The reference read back, fourth part: taking, from each row of log-probabilities, the entry of the row's own column.
  The labels are the row counters, never negative and never past the last column, so the wrap-around of negative
  labels does nothing, the in-bounds mask is all true, and the gather reads row `i` at column `i`.
-/
import proofs.«129074_j39118562132130_1_alg».proof.Proof.RefReadLite
import proofs.«129074_j39118562132130_1_alg».proof.Proof.Spec
import proofs.«129074_j39118562132130_1_alg».proof.Proof.RefLib
import proofs.«129074_j39118562132130_1_alg».proof.Proof.RefGather
import proofs.«129074_j39118562132130_1_alg».proof.Proof.RefCosine
import proofs.«129074_j39118562132130_1_alg».proof.Proof.RefLogits
import proofs.«129074_j39118562132130_1_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx Cert.Contrast

/-- The labels: the row counter, as a column. -/
theorem v30_at (i : Fin 8192) : val_main_v30 (F := Ideal) (ix2 i (0 : Fin 1)) = BitVec.ofNat 32 i.val := by
  rw [val_main_v30_apply, val_main_v28_apply]

/-- A label is never negative, so the wrap-around of negative labels leaves it as it is. -/
theorem call2_v4_at (i : Fin 8192) : val_main_call2_v4 (F := Ideal) (ix2 i (0 : Fin 1)) = BitVec.ofNat 32 i.val := by
  rw [val_main_call2_v4_apply, val_main_call2_v1_apply, val_main_call2_v0_apply, val_main_call2_c_apply, v30_at]
  have hbit : IntOp.cmpi .slt (BitVec.ofNat 32 i.val) 0#32 = 1#1 ↔ False := by
    rw [IntOp.cmpi_slt, toInt_ofNat32 i.val i.isLt, show (0#32 : BitVec 32).toInt = 0 from rfl]
    constructor
    · intro h; omega
    · exact False.elim
  rw [select_of_iff _ False hbit, if_neg not_false]

/-- The labels as the gather takes them: one index per row. -/
theorem call2_v5_at (i : Fin 8192) (b c : Fin 1) :
    val_main_call2_v5 (F := Ideal) (ix3 i b c) = BitVec.ofNat 32 i.val := by
  rw [val_main_call2_v5_apply]
  have hidx : idx_main_call2_v5 (ix3 i b c) = ix2 i (0 : Fin 1) := funext fun a => Fin.ext (by
    match a with
    | ⟨0, _⟩ =>
      show ((i.val * 1 + b.val) * 1 + c.val) / 1 = i.val
      have := b.isLt; have := c.isLt; omega
    | ⟨1, _⟩ => rfl)
  rw [hidx, call2_v4_at]

/-- Every label lies between `0` and `8192`, the last column: the in-bounds bit is `1` everywhere. -/
theorem call2_v11_at (k : S8192x1x1.Idx) : val_main_call2_v11 (F := Ideal) k = 1#1 := by
  obtain ⟨i, b, c, rfl⟩ : ∃ (i : Fin 8192) (b c : Fin 1), k = ix3 i b c := ⟨k 0, k 1, k 2, eq_ix3 k⟩
  rw [val_main_call2_v11_apply, val_main_call2_v7_apply, val_main_call2_v10_apply, call2_v5_at, val_main_call2_v6_apply,
    val_main_call2_c_2_apply, val_main_call2_v9_apply, val_main_call2_v8_apply, val_main_call2_c_1_apply]
  rw [IntOp.andi_eq_one, IntOp.cmpi_sge, IntOp.cmpi_sle, toInt_ofNat32 i.val i.isLt,
    show (0#32 : BitVec 32).toInt = 0 from rfl, show (8192#32 : BitVec 32).toInt = 8192 from rfl]
  have := i.isLt
  exact ⟨by omega, by omega⟩

/-- … and so is its reduction by `and`. -/
theorem call2_v12_at (i : Fin 8192) : val_main_call2_v12 (F := Ideal) (ix2 i (0 : Fin 1)) = 1#1 := by
  unfold val_main_call2_v12
  exact reduce_andi_of_all _ _ _ (by decide) _ (fun k => val_main_call2_c_3_apply k) call2_v11_at _

/-- The gather takes, from row `i` of the log-probabilities, the entry of column `i`. -/
theorem call2_v13_at (x0 x1 : Arr) (i : Fin 8192) :
    val_main_call2_v13 (F := Ideal) x0 x1 (ix2 i (0 : Fin 1)) = val_main_v29 (F := Ideal) x0 x1 (ix2 i i.castSucc) := by
  unfold val_main_call2_v13
  refine (gather_row_apply _ _ i).trans ?_
  have hcol : min (val_main_call2_v5 (F := Ideal) (ix3 i (0 : Fin 1) (0 : Fin 1))).toInt.toNat 8192 = i.val := by
    rw [call2_v5_at, toInt_ofNat32 i.val i.isLt, Int.toNat_natCast]
    exact Nat.min_eq_left (by have := i.isLt; omega)
  refine congrArg (val_main_v29 (F := Ideal) x0 x1) ?_
  exact congrArg (ix2 i) (Fin.ext hcol)

/-- What is taken along the rows: the log-probability each row's softmax gives its own column. -/
theorem v31_at (x0 x1 : Arr) (i : Fin 8192) :
    val_main_v31 (F := Ideal) x0 x1 (ix2 i (0 : Fin 1)) = logProb (rows x0) (rows x1) i := by
  rw [val_main_v31_apply, call2_v12_at, select_one, call2_v13_at, v29_at]
  rfl

end Cert.ReferenceIdeal.RefValue

end
-- ==== Proof.RefLoss.lean ====
/-
  The reference read back, last part: the sum of the taken log-probabilities over all rows, divided by the number of
  rows and negated — the reference's loss as a function of the two argument arrays.
-/
import proofs.«129074_j39118562132130_1_alg».proof.Proof.RefReadLite
import proofs.«129074_j39118562132130_1_alg».proof.Proof.Spec
import proofs.«129074_j39118562132130_1_alg».proof.Proof.RefLib
import proofs.«129074_j39118562132130_1_alg».proof.Proof.RefCosine
import proofs.«129074_j39118562132130_1_alg».proof.Proof.RefTake

noncomputable section

namespace Cert.ReferenceIdeal.RefValue

open Cert.ReferenceIdeal Cert.ReferenceIdeal.Gen Cert.ReferenceIdeal.Read Idealize.ShloMosaic Idealize.ShloMosaic.ValueIdx Cert.Contrast

/-- The sum, over all rows, of what was taken. -/
theorem v32_at (x0 x1 : Arr) (k : S_.Idx) :
    val_main_v32 (F := Ideal) x0 x1 k = ∑ i, logProb (rows x0) (rows x1) i := by
  rw [val_main_v32_apply, val_main_cst_6_apply]
  show Ideal.ofBits .f32 0x00000000#32 + _ = _
  rw [Ideal.ofBits_zero_f32, zero_add, sum_col]
  exact Finset.sum_congr rfl fun i _ => v31_at x0 x1 i

/-- THE REFERENCE'S RESULT: minus the mean, over the rows, of the log-probability each row's softmax gives its own
    column. -/
theorem reference_value (x0 x1 : (⟨S8192x256, .f32⟩ : BufTy).Contents (Elt Ideal)) :
    Cert.ReferenceIdeal.Read.val_main_v34 (F := Ideal) x0 x1
      = fun _ => Cert.Contrast.referenceLoss (fun i k => x0 (ValueIdx.ix2 i k)) (fun i k => x1 (ValueIdx.ix2 i k)) := by
  funext k
  rw [val_main_v34_apply, val_main_v33_apply, v32_at, val_main_cst_7_apply]
  rfl

end Cert.ReferenceIdeal.RefValue

end
-- ==== Proof.Algebraic.lean ====
/-
  The two programs compute the same loss.

  At the ideal instance the kernel's run ends with its result at the specification's kernel loss of the two argument
  arrays, and the reference's run with its result at the specification's reference loss of its own; the memories agree
  on the arguments, every entry of which is finite by the precondition, and for finite entries the two losses are one
  number: the online accumulation along each row is the row's log-sum-exp, the kernel's scale is the reciprocal of the
  reference's temperature, and the mean of the negated log-probabilities is the negated mean.
-/
import proofs.«129074_j39118562132130_1_alg».proof.Defs
import proofs.«129074_j39118562132130_1_alg».proof.Proof.KFinal
import proofs.«129074_j39118562132130_1_alg».proof.Proof.LossEq
import proofs.«129074_j39118562132130_1_alg».proof.Proof.FiniteInputs
import proofs.«129074_j39118562132130_1_alg».proof.Proof.RefLoss
import proofs.«129074_j39118562132130_1_alg».proof.Proof.RefRunVal

noncomputable section

open Idealize.ShloMosaic Idealize.ShloMosaic.TcCoe Idealize.SL.Sem Idealize.ShloMosaic.ValueIdx

namespace Cert.Proof.Value

open Cert.Contrast

/-- The kernel's result equals the reference's, from memories that agree on the two arguments. -/
theorem algebraic : Cert.algebraic_KernelIdeal_ReferenceIdeal := by
  intro m ρ m' ρ' hpre hagree
  refine ⟨fun c => fun _ => kernelLoss (Cert.KernelIdeal.Walk.argA m c) (Cert.KernelIdeal.Walk.argP m c),
    Cert.KernelIdeal.Result.run m ρ, ?_⟩
  refine (θ_run Cert.ReferenceIdeal.defs _ _).mono (fun _ h c => ⟨(h c).1.trans ?_, (h c).2⟩)
    (Cert.ReferenceIdeal.RefValue.run_val (F := Ideal) m' ρ')
  rw [Cert.ReferenceIdeal.RefValue.reference_value, (hagree c).1, (hagree c).2]
  funext _
  have hfin := Cert.Proof.Finite.finite_of_pre m hpre c
  exact (loss_eq (Cert.KernelIdeal.Walk.argA m c) (Cert.KernelIdeal.Walk.argP m c)
    (fun i k => hfin.1 (ix2 i k)) (fun i k => hfin.2 (ix2 i k))).symm

end Cert.Proof.Value

end
-- ==== Proof.lean ====
/-
  The certificate's claim: a contrastive loss computed two ways.

  Both programs take two arrays of 8192 rows of 256 features, divide each row by its Euclidean norm, form the
  8192 × 8192 matrix of cosines between rows of the first and rows of the second, and return the mean over the rows of
  a cross-entropy whose logits are the row's cosines and its largest off-diagonal cosine, scaled by a temperature, with
  the diagonal entry as the label. The reference materialises the matrix and takes a softmax over each row of 8193
  logits. The kernel walks the matrix in 8 × 8 blocks of 1024 × 1024, keeping for each row a running maximum, a running
  sum of exponentials re-based to that maximum, a running off-diagonal maximum and the diagonal entry, and combines them
  at the last block of the row.

  The five conjuncts: the three programs run to the end without a fault and leave their arguments unchanged (Frames);
  the two constants the idealization names — the kernel's scale as the exact reciprocal of the reference's temperature,
  and the finite fill of the masked diagonal as -∞ — denote what the table gives them (Frames.preserves); and at the
  ideal instance, for finite inputs, the two results are one extended real (Value.algebraic: the kernel's result is
  read off its run block by block (KPieces, KRead, KWalk, KFinal), the reference's off its run stage by stage
  (RefCosine … RefLoss), and the two closed forms are joined by the algebra of the online log-sum-exp (LossEq)).
-/
import proofs.«129074_j39118562132130_1_alg».proof.Defs
import proofs.«129074_j39118562132130_1_alg».proof.Proof.Gen.Kernel
import proofs.«129074_j39118562132130_1_alg».proof.Proof.Gen.Kernel.Skeleton
import proofs.«129074_j39118562132130_1_alg».proof.Proof.Gen.Kernel.Launch
import proofs.«129074_j39118562132130_1_alg».proof.Proof.Gen.Kernel.Points
import proofs.«129074_j39118562132130_1_alg».proof.Proof.Gen.Kernel.Frame
import proofs.«129074_j39118562132130_1_alg».proof.Proof.Gen.KernelIdeal
import proofs.«129074_j39118562132130_1_alg».proof.Proof.Gen.KernelIdeal.Skeleton
import proofs.«129074_j39118562132130_1_alg».proof.Proof.Gen.KernelIdeal.Launch
import proofs.«129074_j39118562132130_1_alg».proof.Proof.Gen.KernelIdeal.Points
import proofs.«129074_j39118562132130_1_alg».proof.Proof.Gen.KernelIdeal.Frame
import proofs.«129074_j39118562132130_1_alg».proof.Proof.Gen.ReferenceIdeal
import proofs.«129074_j39118562132130_1_alg».proof.Proof.Gen.Pre_finite_inputs
import proofs.«129074_j39118562132130_1_alg».proof.Proof.Frames
import proofs.«129074_j39118562132130_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, Frames.preserves, Value.algebraic⟩

end Cert.Proof

end
